-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x49x384 : Shape := ⟨3, ![4096, 49, 384]⟩
abbrev S64x49x49 : Shape := ⟨3, ![64, 49, 49]⟩
abbrev S169x12 : Shape := ⟨2, ![169, 12]⟩
abbrev S49x49 : Shape := ⟨2, ![49, 49]⟩
abbrev S_ : Shape := ⟨0, ![]⟩

class Facts : Prop where
  bcast_S_S4096x49x384 : S_.BroadcastsInDim S4096x49x384 (![] : Fin 0 → Fin S4096x49x384.rank)
  reducesTo_S4096x49x384_S_d0_1_2 : S4096x49x384.ReducesTo [0, 1, 2] S_
  h_S_ : 0 < S_.numel
  bcast_S_S64x49x49 : S_.BroadcastsInDim S64x49x49 (![] : Fin 0 → Fin S64x49x49.rank)
  reducesTo_S64x49x49_S_d0_1_2 : S64x49x49.ReducesTo [0, 1, 2] S_
  bcast_S_S169x12 : S_.BroadcastsInDim S169x12 (![] : Fin 0 → Fin S169x12.rank)
  reducesTo_S169x12_S_d0_1 : S169x12.ReducesTo [0, 1] S_

variable [Facts]

def fn_part1 {F : FTy → Type} [FloatOps F] (main_arg4 : FVec F S169x12 .f32) (main_v13 : IVec S_ 1) (main_v16 : IVec S64x49x49 1) : IVec S_ 1 :=
  let main_c_5 : IVec S_ 1 := constantI S_ 1 1#1
  let main_v17 : IVec S_ 1 := (fun x v => Host.reduce IntOp.andi x v reducesTo_S64x49x49_S_d0_1_2 h_S_) main_v16 main_c_5
  let main_v18 : IVec S_ 1 := andi main_v13 main_v17
  let main_v19 : FVec F S169x12 .f32 := Host.absf main_arg4
  let main_cst_6 : FVec F S_ .f32 := constant S_ .f32 0x7F800000#32
  let main_v20 : FVec F S169x12 .f32 := broadcastInDim S169x12 ![] bcast_S_S169x12 main_cst_6
  let main_v21 : IVec S169x12 1 := cmpf .olt main_v19 main_v20
  let main_c_7 : IVec S_ 1 := constantI S_ 1 1#1
  let main_v22 : IVec S_ 1 := (fun x v => Host.reduce IntOp.andi x v reducesTo_S169x12_S_d0_1 h_S_) main_v21 main_c_7
  let main_v23 : IVec S_ 1 := andi main_v18 main_v22
  main_v23

def fn {F : FTy → Type} [FloatOps F] (main_arg0 : FVec F S4096x49x384 .f32) (main_arg1 : FVec F S4096x49x384 .f32) (main_arg2 : FVec F S4096x49x384 .f32) (main_arg3 : FVec F S64x49x49 .f32) (main_arg4 : FVec F S169x12 .f32) (main_arg5 : IVec S49x49 32) : IVec S_ 1 :=
  let main_v0 : FVec F S4096x49x384 .f32 := Host.absf main_arg0
  let main_cst : FVec F S_ .f32 := constant S_ .f32 0x7F800000#32
  let main_v1 : FVec F S4096x49x384 .f32 := broadcastInDim S4096x49x384 ![] bcast_S_S4096x49x384 main_cst
  let main_v2 : IVec S4096x49x384 1 := cmpf .olt main_v0 main_v1
  let main_c : IVec S_ 1 := constantI S_ 1 1#1
  let main_v3 : IVec S_ 1 := (fun x v => Host.reduce IntOp.andi x v reducesTo_S4096x49x384_S_d0_1_2 h_S_) main_v2 main_c
  let main_v4 : FVec F S4096x49x384 .f32 := Host.absf main_arg1
  let main_cst_0 : FVec F S_ .f32 := constant S_ .f32 0x7F800000#32
  let main_v5 : FVec F S4096x49x384 .f32 := broadcastInDim S4096x49x384 ![] bcast_S_S4096x49x384 main_cst_0
  let main_v6 : IVec S4096x49x384 1 := cmpf .olt main_v4 main_v5
  let main_c_1 : IVec S_ 1 := constantI S_ 1 1#1
  let main_v7 : IVec S_ 1 := (fun x v => Host.reduce IntOp.andi x v reducesTo_S4096x49x384_S_d0_1_2 h_S_) main_v6 main_c_1
  let main_v8 : IVec S_ 1 := andi main_v3 main_v7
  let main_v9 : FVec F S4096x49x384 .f32 := Host.absf main_arg2
  let main_cst_2 : FVec F S_ .f32 := constant S_ .f32 0x7F800000#32
  let main_v10 : FVec F S4096x49x384 .f32 := broadcastInDim S4096x49x384 ![] bcast_S_S4096x49x384 main_cst_2
  let main_v11 : IVec S4096x49x384 1 := cmpf .olt main_v9 main_v10
  let main_c_3 : IVec S_ 1 := constantI S_ 1 1#1
  let main_v12 : IVec S_ 1 := (fun x v => Host.reduce IntOp.andi x v reducesTo_S4096x49x384_S_d0_1_2 h_S_) main_v11 main_c_3
  let main_v13 : IVec S_ 1 := andi main_v8 main_v12
  let main_v14 : FVec F S64x49x49 .f32 := Host.absf main_arg3
  let main_cst_4 : FVec F S_ .f32 := constant S_ .f32 0x7F800000#32
  let main_v15 : FVec F S64x49x49 .f32 := broadcastInDim S64x49x49 ![] bcast_S_S64x49x49 main_cst_4
  let main_v16 : IVec S64x49x49 1 := cmpf .olt main_v14 main_v15
  fn_part1 (F := F) main_arg4 main_v13 main_v16
-- ==== Kernel.lean ====
abbrev S4096x49x384 : Shape := ⟨3, ![4096, 49, 384]⟩
abbrev S64x49x49 : Shape := ⟨3, ![64, 49, 49]⟩
abbrev S169x12 : Shape := ⟨2, ![169, 12]⟩
abbrev S49x49 : Shape := ⟨2, ![49, 49]⟩
abbrev S_ : Shape := ⟨0, ![]⟩
abbrev S49x49x1 : Shape := ⟨3, ![49, 49, 1]⟩
abbrev S49x49x12 : Shape := ⟨3, ![49, 49, 12]⟩
abbrev S12x49x49 : Shape := ⟨3, ![12, 49, 49]⟩
abbrev S32x49x384 : Shape := ⟨3, ![32, 49, 384]⟩
abbrev S32x49x49 : Shape := ⟨3, ![32, 49, 49]⟩
abbrev S32x49x32 : Shape := ⟨3, ![32, 49, 32]⟩
abbrev S1x49x49 : Shape := ⟨3, ![1, 49, 49]⟩
abbrev S32x49 : Shape := ⟨2, ![32, 49]⟩
abbrev S32x49x1 : Shape := ⟨3, ![32, 49, 1]⟩

abbrev nBuf : Space → Nat
  | .hbm => 17
  | .vmem => 11
  | .smem => 0
  | _ => 0

abbrev bufTy : (tb : Table) → Fin (tcTables nBuf tb) → BufTy
  | .hbm, ⟨0, _⟩ => ⟨S4096x49x384, .f32⟩
  | .hbm, ⟨1, _⟩ => ⟨S4096x49x384, .f32⟩
  | .hbm, ⟨2, _⟩ => ⟨S4096x49x384, .f32⟩
  | .hbm, ⟨3, _⟩ => ⟨S64x49x49, .f32⟩
  | .hbm, ⟨4, _⟩ => ⟨S169x12, .f32⟩
  | .hbm, ⟨5, _⟩ => ⟨S49x49, .i32⟩
  | .hbm, ⟨6, _⟩ => ⟨S_, .i32⟩
  | .hbm, ⟨7, _⟩ => ⟨S49x49, .i32⟩
  | .hbm, ⟨8, _⟩ => ⟨S49x49, .i1⟩
  | .hbm, ⟨9, _⟩ => ⟨S_, .i32⟩
  | .hbm, ⟨10, _⟩ => ⟨S49x49, .i32⟩
  | .hbm, ⟨11, _⟩ => ⟨S49x49, .i32⟩
  | .hbm, ⟨12, _⟩ => ⟨S49x49, .i32⟩
  | .hbm, ⟨13, _⟩ => ⟨S49x49x1, .i32⟩
  | .hbm, ⟨14, _⟩ => ⟨S49x49x12, .f32⟩
  | .hbm, ⟨15, _⟩ => ⟨S12x49x49, .f32⟩
  | .hbm, ⟨16, _⟩ => ⟨S4096x49x384, .f32⟩
  | .local _ .vmem, ⟨0, _⟩ => ⟨S32x49x384, .f32⟩
  | .local _ .vmem, ⟨1, _⟩ => ⟨S32x49x384, .f32⟩
  | .local _ .vmem, ⟨2, _⟩ => ⟨S32x49x384, .f32⟩
  | .local _ .vmem, ⟨3, _⟩ => ⟨S32x49x384, .f32⟩
  | .local _ .vmem, ⟨4, _⟩ => ⟨S32x49x384, .f32⟩
  | .local _ .vmem, ⟨5, _⟩ => ⟨S32x49x384, .f32⟩
  | .local _ .vmem, ⟨6, _⟩ => ⟨S12x49x49, .f32⟩
  | .local _ .vmem, ⟨7, _⟩ => ⟨S32x49x49, .f32⟩
  | .local _ .vmem, ⟨8, _⟩ => ⟨S32x49x49, .f32⟩
  | .local _ .vmem, ⟨9, _⟩ => ⟨S32x49x384, .f32⟩
  | .local _ .vmem, ⟨10, _⟩ => ⟨S32x49x384, .f32⟩
  | _, _ => ⟨S4096x49x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x49x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x49x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x49x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S12x49x49 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x49x49 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x49x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S49x49 : S_.BroadcastsInDim S49x49 (![] : Fin 0 → Fin S49x49.rank)
  bcast_S49x49_S49x49x1_0_1 : S49x49.BroadcastsInDim S49x49x1 (![0, 1] : Fin 2 → Fin S49x49x1.rank)
  transposes_S49x49x12_S12x49x49_2_0_1 : S49x49x12.Transposes [2, 0, 1] S12x49x49
  inb_S32x49x49_S32x49x49_0_0_0 : ∀ a, (![0, 0, 0] : Fin 3 → Nat) a + S32x49x49.size a ≤ S32x49x49.size a
  h_S32x49x49 : 0 < S32x49x49.numel
  inb_S32x49x384_S32x49x32_0_0_0 : ∀ a, (![0, 0, 0] : Fin 3 → Nat) a + S32x49x32.size a ≤ S32x49x384.size a
  h_S32x49x32 : 0 < S32x49x32.numel
  bitsLt_bf16_f32 : FTy.bits .bf16 < FTy.bits .f32
  inb_S12x49x49_S1x49x49_0_0_0 : ∀ a, (![0, 0, 0] : Fin 3 → Nat) a + S1x49x49.size a ≤ S12x49x49.size a
  h_S1x49x49 : 0 < S1x49x49.numel
  shapeCasts_S1x49x49_S49x49 : S1x49x49.ShapeCasts S49x49
  shapeCasts_S49x49_S1x49x49 : S49x49.ShapeCasts S1x49x49
  broadcasts_S1x49x49_S32x49x49 : S1x49x49.Broadcasts S32x49x49
  reduces_S32x49x49_S32x49 : S32x49x49.Reduces [2] S32x49
  shapeCasts_S32x49_S32x49x1 : S32x49.ShapeCasts S32x49x1
  broadcasts_S32x49x1_S32x49x49 : S32x49x1.Broadcasts S32x49x49
  inb_S32x49x384_S32x49x32_0_0_32 : ∀ a, (![0, 0, 32] : Fin 3 → Nat) a + S32x49x32.size a ≤ S32x49x384.size a
  inb_S12x49x49_S1x49x49_1_0_0 : ∀ a, (![1, 0, 0] : Fin 3 → Nat) a + S1x49x49.size a ≤ S12x49x49.size a
  inb_S32x49x384_S32x49x32_0_0_64 : ∀ a, (![0, 0, 64] : Fin 3 → Nat) a + S32x49x32.size a ≤ S32x49x384.size a
  inb_S12x49x49_S1x49x49_2_0_0 : ∀ a, (![2, 0, 0] : Fin 3 → Nat) a + S1x49x49.size a ≤ S12x49x49.size a
  inb_S32x49x384_S32x49x32_0_0_96 : ∀ a, (![0, 0, 96] : Fin 3 → Nat) a + S32x49x32.size a ≤ S32x49x384.size a
  inb_S12x49x49_S1x49x49_3_0_0 : ∀ a, (![3, 0, 0] : Fin 3 → Nat) a + S1x49x49.size a ≤ S12x49x49.size a
  inb_S32x49x384_S32x49x32_0_0_128 : ∀ a, (![0, 0, 128] : Fin 3 → Nat) a + S32x49x32.size a ≤ S32x49x384.size a
  inb_S12x49x49_S1x49x49_4_0_0 : ∀ a, (![4, 0, 0] : Fin 3 → Nat) a + S1x49x49.size a ≤ S12x49x49.size a
  inb_S32x49x384_S32x49x32_0_0_160 : ∀ a, (![0, 0, 160] : Fin 3 → Nat) a + S32x49x32.size a ≤ S32x49x384.size a
  inb_S12x49x49_S1x49x49_5_0_0 : ∀ a, (![5, 0, 0] : Fin 3 → Nat) a + S1x49x49.size a ≤ S12x49x49.size a
  inb_S32x49x384_S32x49x32_0_0_192 : ∀ a, (![0, 0, 192] : Fin 3 → Nat) a + S32x49x32.size a ≤ S32x49x384.size a
  inb_S12x49x49_S1x49x49_6_0_0 : ∀ a, (![6, 0, 0] : Fin 3 → Nat) a + S1x49x49.size a ≤ S12x49x49.size a
  inb_S32x49x384_S32x49x32_0_0_224 : ∀ a, (![0, 0, 224] : Fin 3 → Nat) a + S32x49x32.size a ≤ S32x49x384.size a
  inb_S12x49x49_S1x49x49_7_0_0 : ∀ a, (![7, 0, 0] : Fin 3 → Nat) a + S1x49x49.size a ≤ S12x49x49.size a
  inb_S32x49x384_S32x49x32_0_0_256 : ∀ a, (![0, 0, 256] : Fin 3 → Nat) a + S32x49x32.size a ≤ S32x49x384.size a
  inb_S12x49x49_S1x49x49_8_0_0 : ∀ a, (![8, 0, 0] : Fin 3 → Nat) a + S1x49x49.size a ≤ S12x49x49.size a
  inb_S32x49x384_S32x49x32_0_0_288 : ∀ a, (![0, 0, 288] : Fin 3 → Nat) a + S32x49x32.size a ≤ S32x49x384.size a
  inb_S12x49x49_S1x49x49_9_0_0 : ∀ a, (![9, 0, 0] : Fin 3 → Nat) a + S1x49x49.size a ≤ S12x49x49.size a
  inb_S32x49x384_S32x49x32_0_0_320 : ∀ a, (![0, 0, 320] : Fin 3 → Nat) a + S32x49x32.size a ≤ S32x49x384.size a
  inb_S12x49x49_S1x49x49_10_0_0 : ∀ a, (![10, 0, 0] : Fin 3 → Nat) a + S1x49x49.size a ≤ S12x49x49.size a
  inb_S32x49x384_S32x49x32_0_0_352 : ∀ a, (![0, 0, 352] : Fin 3 → Nat) a + S32x49x32.size a ≤ S32x49x384.size a
  inb_S12x49x49_S1x49x49_11_0_0 : ∀ a, (![11, 0, 0] : Fin 3 → Nat) a + S1x49x49.size a ≤ S12x49x49.size a
  gather_S169x12_S49x49x1_S49x49x12_2_0_n_n_0_2_112_wf : GatherDims.WF S169x12 S49x49x1 S49x49x12 [2] [0] [] [0] [] 2 ![1, 12]
  dot_S32x49x32_S32x49x32_S32x49x49_2_2_1_1_0_0_wf : DotDims.WF S32x49x32 S32x49x32 S32x49x49 [2] [2] [1] [1] [0] [0]
  dot_S32x49x49_S32x49x32_S32x49x32_2_1_1_2_0_0_wf : DotDims.WF S32x49x49 S32x49x32 S32x49x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x49x384.size a ≤ S4096x49x384.size a
  hwx0_0 : ∀ i : grid0.Coords, EltTy.bits .f32 = 32 ∨ (Rect.block (s := S4096x49x384) S32x49x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x49x384.size a ≤ S4096x49x384.size a
  hwx0_1 : ∀ i : grid0.Coords, EltTy.bits .f32 = 32 ∨ (Rect.block (s := S4096x49x384) S32x49x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x49x384.size a ≤ S4096x49x384.size a
  hwx0_2 : ∀ i : grid0.Coords, EltTy.bits .f32 = 32 ∨ (Rect.block (s := S4096x49x384) S32x49x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S12x49x49.size a ≤ S12x49x49.size a
  hwx0_3 : ∀ i : grid0.Coords, EltTy.bits .f32 = 32 ∨ (Rect.block (s := S12x49x49) S12x49x49.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x49x49.size a ≤ S64x49x49.size a
  hwx0_4 : ∀ i : grid0.Coords, EltTy.bits .f32 = 32 ∨ (Rect.block (s := S64x49x49) S32x49x49.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x49x384.size a ≤ S4096x49x384.size a
  hwx0_5 : ∀ i : grid0.Coords, EltTy.bits .f32 = 32 ∨ (Rect.block (s := S4096x49x384) S32x49x384.size (cc0_transform_5 i) (hinb0_5 i)).WholeWords (EltTy.packing .f32)

variable [Facts₀]

def gather_S169x12_S49x49x1_S49x49x12_2_0_n_n_0_2_112 : GatherDims S169x12 S49x49x1 S49x49x12 where
  offsetDims := [2]
  collapsedSliceDims := [0]
  operandBatchingDims := []
  startIndicesBatchingDims := []
  startIndexMap := [0]
  indexVectorDim := 2
  sliceSizes := ![1, 12]
  wf := gather_S169x12_S49x49x1_S49x49x12_2_0_n_n_0_2_112_wf
def dot_S32x49x32_S32x49x32_S32x49x49_2_2_1_1_0_0 : DotDims S32x49x32 S32x49x32 S32x49x49 where
  lhsContracting := [2]
  rhsContracting := [2]
  lhsNonContracting := [1]
  rhsNonContracting := [1]
  lhsBatch := [0]
  rhsBatch := [0]
  wf := dot_S32x49x32_S32x49x32_S32x49x49_2_2_1_1_0_0_wf
def dot_S32x49x49_S32x49x32_S32x49x32_2_1_1_2_0_0 : DotDims S32x49x49 S32x49x32 S32x49x32 where
  lhsContracting := [2]
  rhsContracting := [1]
  lhsNonContracting := [1]
  rhsNonContracting := [2]
  lhsBatch := [0]
  rhsBatch := [0]
  wf := dot_S32x49x49_S32x49x32_S32x49x32_2_1_1_2_0_0_wf

abbrev win0_0 : Pipeline.Window sig grid0 :=
  Pipeline.Window.ofSpec (Memref.whole main_arg0) S32x49x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x49x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x49x384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S12x49x49.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S32x49x49.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S32x49x384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x49x384 : Shape := ⟨3, ![4096, 49, 384]⟩
abbrev S64x49x49 : Shape := ⟨3, ![64, 49, 49]⟩
abbrev S169x12 : Shape := ⟨2, ![169, 12]⟩
abbrev S49x49 : Shape := ⟨2, ![49, 49]⟩
abbrev S4096x49x12x32 : Shape := ⟨4, ![4096, 49, 12, 32]⟩
abbrev S4096x12x49x32 : Shape := ⟨4, ![4096, 12, 49, 32]⟩
abbrev S_ : Shape := ⟨0, ![]⟩
abbrev S4096x12x49x49 : Shape := ⟨4, ![4096, 12, 49, 49]⟩
abbrev S49x49x1 : Shape := ⟨3, ![49, 49, 1]⟩
abbrev S49x49x12 : Shape := ⟨3, ![49, 49, 12]⟩
abbrev S12x49x49 : Shape := ⟨3, ![12, 49, 49]⟩
abbrev S1x12x49x49 : Shape := ⟨4, ![1, 12, 49, 49]⟩
abbrev S64x64x12x49x49 : Shape := ⟨5, ![64, 64, 12, 49, 49]⟩
abbrev S1x64x1x49x49 : Shape := ⟨5, ![1, 64, 1, 49, 49]⟩
abbrev S4096x12x49 : Shape := ⟨3, ![4096, 12, 49]⟩
abbrev S4096x12x49x1 : Shape := ⟨4, ![4096, 12, 49, 1]⟩

abbrev nBuf : Space → Nat
  | .hbm => 51
  | .vmem => 0
  | .smem => 0
  | _ => 0

abbrev bufTy : (tb : Table) → Fin (tcTables nBuf tb) → BufTy
  | .hbm, ⟨0, _⟩ => ⟨S4096x49x384, .f32⟩
  | .hbm, ⟨1, _⟩ => ⟨S4096x49x384, .f32⟩
  | .hbm, ⟨2, _⟩ => ⟨S4096x49x384, .f32⟩
  | .hbm, ⟨3, _⟩ => ⟨S64x49x49, .f32⟩
  | .hbm, ⟨4, _⟩ => ⟨S169x12, .f32⟩
  | .hbm, ⟨5, _⟩ => ⟨S49x49, .i32⟩
  | .hbm, ⟨6, _⟩ => ⟨S4096x49x12x32, .f32⟩
  | .hbm, ⟨7, _⟩ => ⟨S4096x12x49x32, .f32⟩
  | .hbm, ⟨8, _⟩ => ⟨S_, .f32⟩
  | .hbm, ⟨9, _⟩ => ⟨S4096x12x49x32, .f32⟩
  | .hbm, ⟨10, _⟩ => ⟨S4096x12x49x32, .f32⟩
  | .hbm, ⟨11, _⟩ => ⟨S4096x49x12x32, .f32⟩
  | .hbm, ⟨12, _⟩ => ⟨S4096x12x49x32, .f32⟩
  | .hbm, ⟨13, _⟩ => ⟨S4096x49x12x32, .f32⟩
  | .hbm, ⟨14, _⟩ => ⟨S4096x12x49x32, .f32⟩
  | .hbm, ⟨15, _⟩ => ⟨S4096x12x49x49, .f32⟩
  | .hbm, ⟨16, _⟩ => ⟨S_, .i32⟩
  | .hbm, ⟨17, _⟩ => ⟨S49x49, .i32⟩
  | .hbm, ⟨18, _⟩ => ⟨S49x49, .i1⟩
  | .hbm, ⟨19, _⟩ => ⟨S_, .i32⟩
  | .hbm, ⟨20, _⟩ => ⟨S49x49, .i32⟩
  | .hbm, ⟨21, _⟩ => ⟨S49x49, .i32⟩
  | .hbm, ⟨22, _⟩ => ⟨S49x49, .i32⟩
  | .hbm, ⟨23, _⟩ => ⟨S49x49x1, .i32⟩
  | .hbm, ⟨24, _⟩ => ⟨S49x49x12, .f32⟩
  | .hbm, ⟨25, _⟩ => ⟨S12x49x49, .f32⟩
  | .hbm, ⟨26, _⟩ => ⟨S1x12x49x49, .f32⟩
  | .hbm, ⟨27, _⟩ => ⟨S4096x12x49x49, .f32⟩
  | .hbm, ⟨28, _⟩ => ⟨S4096x12x49x49, .f32⟩
  | .hbm, ⟨29, _⟩ => ⟨S64x64x12x49x49, .f32⟩
  | .hbm, ⟨30, _⟩ => ⟨S1x64x1x49x49, .f32⟩
  | .hbm, ⟨31, _⟩ => ⟨S64x64x12x49x49, .f32⟩
  | .hbm, ⟨32, _⟩ => ⟨S64x64x12x49x49, .f32⟩
  | .hbm, ⟨33, _⟩ => ⟨S4096x12x49x49, .f32⟩
  | .hbm, ⟨34, _⟩ => ⟨S_, .f32⟩
  | .hbm, ⟨35, _⟩ => ⟨S4096x12x49, .f32⟩
  | .hbm, ⟨36, _⟩ => ⟨S_, .f32⟩
  | .hbm, ⟨37, _⟩ => ⟨S4096x12x49, .f32⟩
  | .hbm, ⟨38, _⟩ => ⟨S4096x12x49, .f32⟩
  | .hbm, ⟨39, _⟩ => ⟨S4096x12x49x1, .f32⟩
  | .hbm, ⟨40, _⟩ => ⟨S4096x12x49x49, .f32⟩
  | .hbm, ⟨41, _⟩ => ⟨S4096x12x49x49, .f32⟩
  | .hbm, ⟨42, _⟩ => ⟨S4096x12x49x49, .f32⟩
  | .hbm, ⟨43, _⟩ => ⟨S_, .f32⟩
  | .hbm, ⟨44, _⟩ => ⟨S4096x12x49, .f32⟩
  | .hbm, ⟨45, _⟩ => ⟨S4096x12x49x1, .f32⟩
  | .hbm, ⟨46, _⟩ => ⟨S4096x12x49x49, .f32⟩
  | .hbm, ⟨47, _⟩ => ⟨S4096x12x49x49, .f32⟩
  | .hbm, ⟨48, _⟩ => ⟨S4096x12x49x32, .f32⟩
  | .hbm, ⟨49, _⟩ => ⟨S4096x49x12x32, .f32⟩
  | .hbm, ⟨50, _⟩ => ⟨S4096x49x384, .f32⟩
  | _, _ => ⟨S4096x49x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]

class Facts₀ : Prop where
  shapeCasts_S4096x49x384_S4096x49x12x32 : S4096x49x384.ShapeCasts S4096x49x12x32
  transposes_S4096x49x12x32_S4096x12x49x32_0_2_1_3 : S4096x49x12x32.Transposes [0, 2, 1, 3] S4096x12x49x32
  bcast_S_S4096x12x49x32 : S_.BroadcastsInDim S4096x12x49x32 (![] : Fin 0 → Fin S4096x12x49x32.rank)
  bcast_S_S49x49 : S_.BroadcastsInDim S49x49 (![] : Fin 0 → Fin S49x49.rank)
  bcast_S49x49_S49x49x1_0_1 : S49x49.BroadcastsInDim S49x49x1 (![0, 1] : Fin 2 → Fin S49x49x1.rank)
  transposes_S49x49x12_S12x49x49_2_0_1 : S49x49x12.Transposes [2, 0, 1] S12x49x49
  bcast_S12x49x49_S1x12x49x49_1_2_3 : S12x49x49.BroadcastsInDim S1x12x49x49 (![1, 2, 3] : Fin 3 → Fin S1x12x49x49.rank)
  bcast_S1x12x49x49_S4096x12x49x49_0_1_2_3 : S1x12x49x49.BroadcastsInDim S4096x12x49x49 (![0, 1, 2, 3] : Fin 4 → Fin S4096x12x49x49.rank)
  shapeCasts_S4096x12x49x49_S64x64x12x49x49 : S4096x12x49x49.ShapeCasts S64x64x12x49x49
  bcast_S64x49x49_S1x64x1x49x49_1_3_4 : S64x49x49.BroadcastsInDim S1x64x1x49x49 (![1, 3, 4] : Fin 3 → Fin S1x64x1x49x49.rank)
  bcast_S1x64x1x49x49_S64x64x12x49x49_0_1_2_3_4 : S1x64x1x49x49.BroadcastsInDim S64x64x12x49x49 (![0, 1, 2, 3, 4] : Fin 5 → Fin S64x64x12x49x49.rank)
  shapeCasts_S64x64x12x49x49_S4096x12x49x49 : S64x64x12x49x49.ShapeCasts S4096x12x49x49
  reducesTo_S4096x12x49x49_S4096x12x49_d3 : S4096x12x49x49.ReducesTo [3] S4096x12x49
  h_S_ : 0 < S_.numel
  bcast_S_S4096x12x49 : S_.BroadcastsInDim S4096x12x49 (![] : Fin 0 → Fin S4096x12x49.rank)
  bcast_S4096x12x49_S4096x12x49x1_0_1_2 : S4096x12x49.BroadcastsInDim S4096x12x49x1 (![0, 1, 2] : Fin 3 → Fin S4096x12x49x1.rank)
  bcast_S4096x12x49x1_S4096x12x49x49_0_1_2_3 : S4096x12x49x1.BroadcastsInDim S4096x12x49x49 (![0, 1, 2, 3] : Fin 4 → Fin S4096x12x49x49.rank)
  transposes_S4096x12x49x32_S4096x49x12x32_0_2_1_3 : S4096x12x49x32.Transposes [0, 2, 1, 3] S4096x49x12x32
  shapeCasts_S4096x49x12x32_S4096x49x384 : S4096x49x12x32.ShapeCasts S4096x49x384
  dot_S4096x12x49x32_S4096x12x49x32_S4096x12x49x49_3_3_2_2_01_01_wf : DotDims.WF S4096x12x49x32 S4096x12x49x32 S4096x12x49x49 [3] [3] [2] [2] [0, 1] [0, 1]
  gather_S169x12_S49x49x1_S49x49x12_2_0_n_n_0_2_112_wf : GatherDims.WF S169x12 S49x49x1 S49x49x12 [2] [0] [] [0] [] 2 ![1, 12]
  dot_S4096x12x49x49_S4096x12x49x32_S4096x12x49x32_3_2_2_3_01_01_wf : DotDims.WF S4096x12x49x49 S4096x12x49x32 S4096x12x49x32 [3] [2] [2] [3] [0, 1] [0, 1]

variable [Facts₀]

def dot_S4096x12x49x32_S4096x12x49x32_S4096x12x49x49_3_3_2_2_01_01 : DotDims S4096x12x49x32 S4096x12x49x32 S4096x12x49x49 where
  lhsContracting := [3]
  rhsContracting := [3]
  lhsNonContracting := [2]
  rhsNonContracting := [2]
  lhsBatch := [0, 1]
  rhsBatch := [0, 1]
  wf := dot_S4096x12x49x32_S4096x12x49x32_S4096x12x49x49_3_3_2_2_01_01_wf
def gather_S169x12_S49x49x1_S49x49x12_2_0_n_n_0_2_112 : GatherDims S169x12 S49x49x1 S49x49x12 where
  offsetDims := [2]
  collapsedSliceDims := [0]
  operandBatchingDims := []
  startIndicesBatchingDims := []
  startIndexMap := [0]
  indexVectorDim := 2
  sliceSizes := ![1, 12]
  wf := gather_S169x12_S49x49x1_S49x49x12_2_0_n_n_0_2_112_wf
def dot_S4096x12x49x49_S4096x12x49x32_S4096x12x49x32_3_2_2_3_01_01 : DotDims S4096x12x49x49 S4096x12x49x32 S4096x12x49x32 where
  lhsContracting := [3]
  rhsContracting := [2]
  lhsNonContracting := [2]
  rhsNonContracting := [3]
  lhsBatch := [0, 1]
  rhsBatch := [0, 1]
  wf := dot_S4096x12x49x49_S4096x12x49x32_S4096x12x49x32_3_2_2_3_01_01_wf

class Facts : Prop extends Facts₀ where

variable [Facts]
-- ==== Proof.AttnSpec.lean ====
/-
  One query row of a windowed attention, over the extended reals.

  A row has 49 keys and one head has 32 lanes. The score of key m is the dot product over the lanes of the scaled
  query row with key row m, plus the relative-position bias of the pair, plus the window's mask entry. The weights are
  the scores' softmax: each score minus the row's peak (the largest score, the fold of max from the peak's start value,
  once more maxed with that start value), exponentiated, divided by the sum of the exponentials. The row's output in
  one lane is the weighted sum of that lane of the 49 value rows. Every sum is taken in the one order the index type gives.
-/
import Idealize.ShloMosaic.PureOps.Ideal
import Idealize.ShloMosaic.Lib.ValueIdx

noncomputable section

open scoped BigOperators

namespace Cert.Attn

open Idealize.ShloMosaic

/-- The score of key `m`: the scaled query row against key row `m`, plus the pair's bias, plus the mask entry. -/
def score (sc : EReal) (qr : Fin 32 → EReal) (kr : Fin 49 → Fin 32 → EReal) (bs mk : Fin 49 → EReal) (m : Fin 49) : EReal :=
  ((∑ d : Fin 32, (qr d * sc) * kr m d) + bs m) + mk m

/-- The row's peak: the fold of max over its 49 scores from the start value, maxed once more with the start value. -/
def peak (lo : EReal) (s : Fin 49 → EReal) : EReal :=
  max lo ((Finset.univ : Finset (Fin 49)).fold max lo s)

/-- The exponential of a score's distance below the peak. -/
def wexp (lo : EReal) (s : Fin 49 → EReal) (m : Fin 49) : EReal := Ideal.exp (s m - peak lo s)

/-- The softmax weight of key `m`. -/
def prob (lo : EReal) (s : Fin 49 → EReal) (m : Fin 49) : EReal := Ideal.div (wexp lo s m) (∑ m' : Fin 49, wexp lo s m')

/-- The row's output in one lane: the weights against that lane of the value rows. -/
def rowOut (lo : EReal) (s : Fin 49 → EReal) (vc : Fin 49 → EReal) : EReal := ∑ m : Fin 49, prob lo s m * vc m

/-- The scale every query entry is multiplied by: the f32 word nearest 32^(-1/2), read exactly. -/
abbrev SC : EReal := Ideal.ofBits .f32 0x3E3504F3#32

/-- The start value of the peak: the f32 word of minus infinity. -/
abbrev LO : EReal := Ideal.ofBits .f32 0xFF800000#32

end Cert.Attn

end
-- ==== Proof.LibHeadLayout.lean ====
/-
  THE LAYOUT STEPS OF AN ATTENTION OVER THE HEADS OF ONE ROW, READ AT AN INDEX, over generic extents.

  A row of n = b·c numbers is read as b heads of c lanes: column q·c + d is lane d of head q. A body that works head by head
  recasts an [a, n] matrix as [a, b, c] and back, cuts one head [a, 1, c] (or one column [a, b, 1]) out of an [a, b, c]
  (or [a, b, g]) array, drops or adds the unit axis, stretches the cut over the axis it lacks, reduces along the LAST axis
  (a sum, or a maximum from the accumulator's value), and joins sixteen columns [a, b, 1] side by side into [a, b, 16].
  Each lemma reads ONE such step at an index written by its coordinates. Extents are arbitrary natural numbers and every
  operation's side condition is an arbitrary proof.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Lib.HeadLayout

open Idealize.ShloMosaic Idealize.ShloMosaic.ValueIdx

variable {α : Type}

/-! ## Heads and lanes: [a, b·c] and [a, b, c] -/

/-- An [a, n] matrix recast as [a, b, c] reads, at (p, q, d), the matrix at (p, k) for the column k = q·c + d. -/
theorem split_cols_apply {a b c n : ℕ} (x : (⟨2, ![a, n]⟩ : Shape).Idx → α)
    (h : (⟨2, ![a, n]⟩ : Shape).ShapeCasts ⟨3, ![a, b, c]⟩) (hn : n = b * c) (p : Fin a) (q : Fin b) (d : Fin c) (k : Fin n)
    (hk : q.val * c + d.val = k.val) :
    shapeCast ⟨3, ![a, b, c]⟩ x h (ix3 p q d) = x (ix2 p k) :=
  shapeCast_apply x h _ _ (by
    rw [Shape.rowMajor_val_three, Shape.rowMajor_val_two]
    show p.val * n + k.val = (p.val * b + q.val) * c + d.val
    subst hn
    rw [← hk]
    ring)

/-- An [a, b, c] array recast as [a, n] reads, at (p, k) with k = q·c + d, the array at (p, q, d). -/
theorem merge_cols_apply {a b c n : ℕ} (x : (⟨3, ![a, b, c]⟩ : Shape).Idx → α)
    (h : (⟨3, ![a, b, c]⟩ : Shape).ShapeCasts ⟨2, ![a, n]⟩) (hn : n = b * c) (p : Fin a) (q : Fin b) (d : Fin c) (k : Fin n)
    (hk : q.val * c + d.val = k.val) :
    shapeCast ⟨2, ![a, n]⟩ x h (ix2 p k) = x (ix3 p q d) :=
  shapeCast_apply x h _ _ (by
    rw [Shape.rowMajor_val_three, Shape.rowMajor_val_two]
    show (p.val * b + q.val) * c + d.val = p.val * n + k.val
    subst hn
    rw [← hk]
    ring)

/-! ## One head, one column -/

/-- Head g of an [a, b, c] array, cut out as [a, 1, c], reads at (p, u, d) the array at (p, g, d). -/
theorem slice_head_apply {a b c : ℕ} (g : ℕ) (hg : g < b) (x : (⟨3, ![a, b, c]⟩ : Shape).Idx → α)
    (h : (⟨3, ![a, b, c]⟩ : Shape).Slices ![0, g, 0] ⟨3, ![a, 1, c]⟩) (p : Fin a) (u : Fin 1) (d : Fin c) :
    extractStridedSlice ⟨3, ![a, 1, c]⟩ ![0, g, 0] x h (ix3 p u d) = x (ix3 p (⟨g, hg⟩ : Fin b) d) :=
  extractStridedSlice_apply _ _ _ _ _ (fun ax => by
    match ax with
    | ⟨0, _⟩ => exact (Nat.zero_add _).symm
    | ⟨1, _⟩ => show g = g + u.val; omega
    | ⟨2, _⟩ => exact (Nat.zero_add _).symm)

/-- Column g of an [a, b, e] array, cut out as [a, b, 1], reads at (p, q, u) the array at (p, q, g). -/
theorem slice_col_apply {a b e : ℕ} (g : ℕ) (hg : g < e) (x : (⟨3, ![a, b, e]⟩ : Shape).Idx → α)
    (h : (⟨3, ![a, b, e]⟩ : Shape).Slices ![0, 0, g] ⟨3, ![a, b, 1]⟩) (p : Fin a) (q : Fin b) (u : Fin 1) :
    extractStridedSlice ⟨3, ![a, b, 1]⟩ ![0, 0, g] x h (ix3 p q u) = x (ix3 p q (⟨g, hg⟩ : Fin e)) :=
  extractStridedSlice_apply _ _ _ _ _ (fun ax => by
    match ax with
    | ⟨0, _⟩ => exact (Nat.zero_add _).symm
    | ⟨1, _⟩ => exact (Nat.zero_add _).symm
    | ⟨2, _⟩ => show g = g + u.val; omega)

/-! ## Unit axes dropped and added -/

/-- [a, 1, c] recast as [a, c] reads at (p, d) the array at (p, 0, d). -/
theorem drop_mid_apply {a c : ℕ} (x : (⟨3, ![a, 1, c]⟩ : Shape).Idx → α)
    (h : (⟨3, ![a, 1, c]⟩ : Shape).ShapeCasts ⟨2, ![a, c]⟩) (p : Fin a) (d : Fin c) :
    shapeCast ⟨2, ![a, c]⟩ x h (ix2 p d) = x (ix3 p (0 : Fin 1) d) :=
  shapeCast_apply x h _ _ (by
    rw [Shape.rowMajor_val_three, Shape.rowMajor_val_two]
    show (p.val * 1 + 0) * c + d.val = p.val * c + d.val
    rw [Nat.mul_one, Nat.add_zero])

/-- [a, c] recast as [a, 1, c] reads at (p, u, d) the matrix at (p, d). -/
theorem add_mid_apply {a c : ℕ} (x : (⟨2, ![a, c]⟩ : Shape).Idx → α)
    (h : (⟨2, ![a, c]⟩ : Shape).ShapeCasts ⟨3, ![a, 1, c]⟩) (p : Fin a) (u : Fin 1) (d : Fin c) :
    shapeCast ⟨3, ![a, 1, c]⟩ x h (ix3 p u d) = x (ix2 p d) :=
  shapeCast_apply x h _ _ (by
    have hu : u.val = 0 := by omega
    rw [Shape.rowMajor_val_three, Shape.rowMajor_val_two]
    show p.val * c + d.val = (p.val * 1 + u.val) * c + d.val
    rw [hu, Nat.mul_one, Nat.add_zero])

/-- [a, b, 1] recast as [a, b] reads at (p, q) the array at (p, q, 0). -/
theorem drop_last_apply {a b : ℕ} (x : (⟨3, ![a, b, 1]⟩ : Shape).Idx → α)
    (h : (⟨3, ![a, b, 1]⟩ : Shape).ShapeCasts ⟨2, ![a, b]⟩) (p : Fin a) (q : Fin b) :
    shapeCast ⟨2, ![a, b]⟩ x h (ix2 p q) = x (ix3 p q (0 : Fin 1)) :=
  shapeCast_apply x h _ _ (by
    rw [Shape.rowMajor_val_three, Shape.rowMajor_val_two]
    show (p.val * b + q.val) * 1 + 0 = p.val * b + q.val
    rw [Nat.mul_one, Nat.add_zero])

/-- [a, b] recast as [a, b, 1] reads at (p, q, u) the matrix at (p, q). -/
theorem add_last_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-! ## Stretching over the missing axis -/

/-- [a, 1, c] stretched over the heads to [a, b, c] reads at (p, q, d) the array at (p, 0, d). -/
theorem bcast_mid_apply {a b c : ℕ} (x : (⟨3, ![a, 1, c]⟩ : Shape).Idx → α)
    (h : (⟨3, ![a, 1, c]⟩ : Shape).Broadcasts ⟨3, ![a, b, c]⟩) (p : Fin a) (q : Fin b) (d : Fin c) :
    broadcastTo ⟨3, ![a, b, c]⟩ x h (ix3 p q d) = x (ix3 p (0 : Fin 1) d) := by
  refine broadcastTo_apply x h (ix3 p q d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if c = 1 then 0 else d.val
    split
    · have := d.isLt; omega
    · rfl

/-- [a, b, 1] stretched over the lanes to [a, b, c] reads at (p, q, d) the array at (p, q, 0). -/
theorem bcast_last_apply {a b c : ℕ} (x : (⟨3, ![a, b, 1]⟩ : Shape).Idx → α)
    (h : (⟨3, ![a, b, 1]⟩ : Shape).Broadcasts ⟨3, ![a, b, c]⟩) (p : Fin a) (q : Fin b) (d : Fin c) :
    broadcastTo ⟨3, ![a, b, c]⟩ x h (ix3 p q d) = x (ix3 p q (0 : Fin 1)) := by
  refine broadcastTo_apply x h (ix3 p q d) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## Reductions along the last axis -/

/-- The index a reduction of [a, b, c] along its last axis lifts (p, q) to, with last coordinate r: (p, q, r). -/
theorem lift_last {a b c : ℕ} (h : (⟨3, ![a, b, c]⟩ : Shape).Reduces [2] ⟨2, ![a, b]⟩) (p : Fin a) (q : Fin b)
    (r : Fin ((⟨3, ![a, b, c]⟩ : Shape).size 2)) :
    h.lift (ix2 p q) r = ix3 p q (⟨r.val, r.isLt⟩ : Fin c) :=
  funext fun ax => Fin.ext (by
    match ax with
    | ⟨0, _⟩ => rfl
    | ⟨1, _⟩ => rfl
    | ⟨2, _⟩ => rfl)

/-- A sum along the last axis, at the extended reals, read at (p, q): the sum over d of the source at (p, q, d). -/
theorem sum_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ src acc h hφ hacc (ix2 p q) = ∑ d : Fin c, src (ix3 p q d) := by
  refine (Ideal.multiReduction_add_single src acc h hφ hacc (ix2 p q)).trans ?_
  show ∑ r : Fin c, src (h.lift (ix2 p q) r) = _
  exact Finset.sum_congr rfl fun r _ => congrArg src (lift_last h p q r)

/-- A maximum along the last axis, at the extended reals, read at (p, q): the fold of max, from the value the accumulator
    word denotes, over d of the source at (p, q, d). -/
theorem max_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.maximumf.neutral φ hφ) (p : Fin a) (q : Fin b) :
    multiReduction .maximumf [2] ⟨2, ![a, b]⟩ src acc h hφ hacc (ix2 p q)
      = (Finset.univ : Finset (Fin c)).fold max (Ideal.ofBits φ acc) fun d => src (ix3 p q d) := by
  refine (Ideal.multiReduction_maximumf_single src acc h hφ hacc (ix2 p q)).trans ?_
  show (Finset.univ : Finset (Fin c)).fold max (Ideal.ofBits φ acc) (src ∘ h.lift (ix2 p q)) = _
  refine congrArg (fun f => (Finset.univ : Finset (Fin c)).fold max (Ideal.ofBits φ acc) f) (funext fun r => ?_)
  exact congrArg src (lift_last h p q r)

/-! ## Sixteen columns side by side -/

/-- Sixteen columns [a, b, 1] joined along the last axis into [a, b, 16] read, at (p, q, g), column g at (p, q, 0). The
    g-th column is named by the caller (`hxk`). -/
theorem join16_apply_piece {a b : ℕ} (c0 c1 c2 c3 c4 c5 c6 c7 c8 c9 c10 c11 c12 c13 c14 c15 : (⟨3, ![a, b, 1]⟩ : Shape).Idx → α)
    (h : Shape.Concatenates (([⟨⟨3, ![a, b, 1]⟩, c0⟩, ⟨⟨3, ![a, b, 1]⟩, c1⟩, ⟨⟨3, ![a, b, 1]⟩, c2⟩, ⟨⟨3, ![a, b, 1]⟩, c3⟩,
      ⟨⟨3, ![a, b, 1]⟩, c4⟩, ⟨⟨3, ![a, b, 1]⟩, c5⟩, ⟨⟨3, ![a, b, 1]⟩, c6⟩, ⟨⟨3, ![a, b, 1]⟩, c7⟩, ⟨⟨3, ![a, b, 1]⟩, c8⟩,
      ⟨⟨3, ![a, b, 1]⟩, c9⟩, ⟨⟨3, ![a, b, 1]⟩, c10⟩, ⟨⟨3, ![a, b, 1]⟩, c11⟩, ⟨⟨3, ![a, b, 1]⟩, c12⟩, ⟨⟨3, ![a, b, 1]⟩, c13⟩,
      ⟨⟨3, ![a, b, 1]⟩, c14⟩, ⟨⟨3, ![a, b, 1]⟩, c15⟩] : List ((s : Shape) × (s.Idx → α))).map (·.1)) ⟨3, ![a, b, 16]⟩ 2)
    (k : ℕ) (hk : k < 16) (xk : (⟨3, ![a, b, 1]⟩ : Shape).Idx → α)
    (hxk : ([⟨⟨3, ![a, b, 1]⟩, c0⟩, ⟨⟨3, ![a, b, 1]⟩, c1⟩, ⟨⟨3, ![a, b, 1]⟩, c2⟩, ⟨⟨3, ![a, b, 1]⟩, c3⟩,
      ⟨⟨3, ![a, b, 1]⟩, c4⟩, ⟨⟨3, ![a, b, 1]⟩, c5⟩, ⟨⟨3, ![a, b, 1]⟩, c6⟩, ⟨⟨3, ![a, b, 1]⟩, c7⟩, ⟨⟨3, ![a, b, 1]⟩, c8⟩,
      ⟨⟨3, ![a, b, 1]⟩, c9⟩, ⟨⟨3, ![a, b, 1]⟩, c10⟩, ⟨⟨3, ![a, b, 1]⟩, c11⟩, ⟨⟨3, ![a, b, 1]⟩, c12⟩, ⟨⟨3, ![a, b, 1]⟩, c13⟩,
      ⟨⟨3, ![a, b, 1]⟩, c14⟩, ⟨⟨3, ![a, b, 1]⟩, c15⟩] : List ((s : Shape) × (s.Idx → α)))[k]'hk = ⟨⟨3, ![a, b, 1]⟩, xk⟩)
    (p : Fin a) (q : Fin b) (g : Fin 16) (hg : g.val = k) :
    concatenate ⟨3, ![a, b, 16]⟩ 2 [⟨⟨3, ![a, b, 1]⟩, c0⟩, ⟨⟨3, ![a, b, 1]⟩, c1⟩, ⟨⟨3, ![a, b, 1]⟩, c2⟩, ⟨⟨3, ![a, b, 1]⟩, c3⟩,
      ⟨⟨3, ![a, b, 1]⟩, c4⟩, ⟨⟨3, ![a, b, 1]⟩, c5⟩, ⟨⟨3, ![a, b, 1]⟩, c6⟩, ⟨⟨3, ![a, b, 1]⟩, c7⟩, ⟨⟨3, ![a, b, 1]⟩, c8⟩,
      ⟨⟨3, ![a, b, 1]⟩, c9⟩, ⟨⟨3, ![a, b, 1]⟩, c10⟩, ⟨⟨3, ![a, b, 1]⟩, c11⟩, ⟨⟨3, ![a, b, 1]⟩, c12⟩, ⟨⟨3, ![a, b, 1]⟩, c13⟩,
      ⟨⟨3, ![a, b, 1]⟩, c14⟩, ⟨⟨3, ![a, b, 1]⟩, c15⟩] h (ix3 p q g) = xk (ix3 p q (0 : Fin 1)) := by
  refine concatenate_apply_piece (t := ⟨3, ![a, b, 16]⟩) (2 : Fin 3) _ h (ix3 p q g) k hk ⟨3, ![a, b, 1]⟩ xk hxk rfl
    k ?_ (ix3 p q (0 : Fin 1)) ?_ ?_
  · subst hg
    rcases g with ⟨g, hg16⟩
    dsimp only
    interval_cases g <;> simp
  · intro bx hb
    match bx with
    | ⟨0, _⟩ => rfl
    | ⟨1, _⟩ => rfl
    | ⟨2, _⟩ => exact absurd rfl hb
  · show k + 0 = g.val
    omega

end Cert.Lib.HeadLayout

end
-- ==== Proof.KernelHead.lean ====
/-
  One head of the kernel's body, read at an index.

  The body treats its twelve heads alike: from the window block's mask [32, 49, 49], a 32-lane column slab of the query,
  key and value blocks [32, 49, 32] and one plane [1, 49, 49] of the bias it forms the scores (scaled query rows against
  key rows, contracted over the lanes, batched over the windows; plus the bias plane stretched over the windows; plus
  the mask), the softmax of each score row along the keys, and the weighted sum of the value rows. Below, the head's
  stages are stated once as functions of those five arrays, and read at (window b, query row n, lane d) at the extended
  reals as `Cert.Attn.rowOut` of that row's scores and that lane of the value rows.
-/
import proofs.«102599_j120259084937_1_alg».proof.KernelIdeal
import proofs.«102599_j120259084937_1_alg».proof.Proof.Gen.KernelIdeal
import proofs.«102599_j120259084937_1_alg».proof.Proof.AttnSpec
import proofs.«102599_j120259084937_1_alg».proof.Proof.LibHeadLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Head

open Idealize.ShloMosaic Idealize.ShloMosaic.ValueIdx Cert.KernelIdeal Cert.Attn
open Cert.KernelIdeal.Facts₀ Cert.KernelIdeal.Facts

/-! ## The head's stages, for any float instance -/

section Stages

variable {F : FTy → Type} [FloatOps F]

/-- The scores: scaled query rows against key rows, plus the bias plane over every window, plus the mask. -/
def scoresV (mask : Vec F S32x49x49 .f32) (q k : Vec F S32x49x32 .f32) (bias : Vec F S1x49x49 .f32) : FVec F S32x49x49 .f32 :=
  have cst : F .f32 := Scalar.ofBits .f32 0x3E3504F3#32
  have v2 : FVec F S32x49x32 .f32 := broadcast S32x49x32 cst
  have v3 : FVec F S32x49x32 .f32 := mulf q v2
  have v4 : FVec F S32x49x32 .bf16 := truncf .bf16 v3 bitsLt_bf16_f32
  have v6 : FVec F S32x49x32 .bf16 := truncf .bf16 k bitsLt_bf16_f32
  have cst_11 : FVec F S32x49x49 .f32 := constant S32x49x49 .f32 0x00000000#32
  have v9 : FVec F S32x49x49 .f32 := matmul dot_S32x49x32_S32x49x32_S32x49x49_2_2_1_1_0_0 none v4 v6 cst_11
  have v11 : FVec F S49x49 .f32 := shapeCast S49x49 bias shapeCasts_S1x49x49_S49x49
  have v12 : FVec F S1x49x49 .f32 := shapeCast S1x49x49 v11 shapeCasts_S49x49_S1x49x49
  have v13 : FVec F S32x49x49 .f32 := broadcastTo S32x49x49 v12 broadcasts_S1x49x49_S32x49x49
  have v14 : FVec F S32x49x49 .f32 := addf v9 v13
  addf v14 mask

/-- A per-row number [32, 49] laid as a column and stretched along the keys. -/
def colV (x : FVec F S32x49 .f32) : FVec F S32x49x49 .f32 :=
  broadcastTo S32x49x49 (shapeCast S32x49x1 x shapeCasts_S32x49_S32x49x1) broadcasts_S32x49x1_S32x49x49

/-- Each row's peak, stretched along the keys. -/
def peakV (s : FVec F S32x49x49 .f32) : FVec F S32x49x49 .f32 :=
  colV (maximumf (broadcast S32x49 (Scalar.ofBits .f32 0xFF800000#32))
    (multiReduction .maximumf [2] S32x49 s 0xFF800000#32 reduces_S32x49x49_S32x49 (.inl rfl) rfl))

/-- The exponentials of the scores' distances below their row's peak. -/
def expV (s : FVec F S32x49x49 .f32) : FVec F S32x49x49 .f32 := exp (subf s (peakV s))

/-- Each row's sum of exponentials, stretched along the keys. -/
def massV (s : FVec F S32x49x49 .f32) : FVec F S32x49x49 .f32 :=
  colV (multiReduction .add [2] S32x49 (expV s) 0x00000000#32 reduces_S32x49x49_S32x49 (.inl rfl) rfl)

/-- The softmax weights. -/
def probsV (s : FVec F S32x49x49 .f32) : FVec F S32x49x49 .f32 := divf (expV s) (massV s)

/-- The head's result: the weights against the value rows, batched over the windows. -/
def headOut (mask : Vec F S32x49x49 .f32) (q k v : Vec F S32x49x32 .f32) (bias : Vec F S1x49x49 .f32) : FVec F S32x49x32 .f32 :=
  matmul dot_S32x49x49_S32x49x32_S32x49x32_2_1_1_2_0_0 none
    (truncf .bf16 (probsV (scoresV mask q k bias)) bitsLt_bf16_f32) (truncf .bf16 v bitsLt_bf16_f32)
    (constant S32x49x32 .f32 0x00000000#32)

end Stages

/-! ## The two matrix products at an index -/

/-- The operand indices of the score product at output (b, n, m) and lane d: (b, n, d) and (b, m, d). -/
theorem qk_lhs (b : Fin 32) (n m : Fin 49) (q : dot_S32x49x32_S32x49x32_S32x49x49_2_2_1_1_0_0.contr.Idx) (d : Fin 32)
    (hq : (q ⟨0, by decide⟩).val = d.val) :
    dot_S32x49x32_S32x49x32_S32x49x49_2_2_1_1_0_0.lhsIdx (ix3 b n m) q = ix3 b n d := funext fun a => Fin.ext (by
  match a with
  | ⟨0, _⟩ =>
    show (dot_S32x49x32_S32x49x32_S32x49x49_2_2_1_1_0_0.lhsIdx (ix3 b n m) q 0).val = b.val
    unfold DotDims.lhsIdx
    rw [dif_pos (show (0 : Fin S32x49x32.rank) ∈ dot_S32x49x32_S32x49x32_S32x49x49_2_2_1_1_0_0.lhsBatch by decide)]
    rfl
  | ⟨1, _⟩ =>
    show (dot_S32x49x32_S32x49x32_S32x49x49_2_2_1_1_0_0.lhsIdx (ix3 b n m) q 1).val = n.val
    unfold DotDims.lhsIdx
    rw [dif_neg (show ¬(1 : Fin S32x49x32.rank) ∈ dot_S32x49x32_S32x49x32_S32x49x49_2_2_1_1_0_0.lhsBatch by decide),
      dif_pos (show (1 : Fin S32x49x32.rank) ∈ dot_S32x49x32_S32x49x32_S32x49x49_2_2_1_1_0_0.lhsNonContracting by decide)]
    rfl
  | ⟨2, _⟩ => exact (dot_S32x49x32_S32x49x32_S32x49x49_2_2_1_1_0_0.lhsIdx_val_of_single rfl (ix3 b n m) q).trans hq)

theorem qk_rhs (b : Fin 32) (n m : Fin 49) (q : dot_S32x49x32_S32x49x32_S32x49x49_2_2_1_1_0_0.contr.Idx) (d : Fin 32)
    (hq : (q ⟨0, by decide⟩).val = d.val) :
    dot_S32x49x32_S32x49x32_S32x49x49_2_2_1_1_0_0.rhsIdx (ix3 b n m) q = ix3 b m d := funext fun a => Fin.ext (by
  match a with
  | ⟨0, _⟩ =>
    show (dot_S32x49x32_S32x49x32_S32x49x49_2_2_1_1_0_0.rhsIdx (ix3 b n m) q 0).val = b.val
    unfold DotDims.rhsIdx
    rw [dif_pos (show (0 : Fin S32x49x32.rank) ∈ dot_S32x49x32_S32x49x32_S32x49x49_2_2_1_1_0_0.rhsBatch by decide)]
    rfl
  | ⟨1, _⟩ =>
    show (dot_S32x49x32_S32x49x32_S32x49x49_2_2_1_1_0_0.rhsIdx (ix3 b n m) q 1).val = m.val
    unfold DotDims.rhsIdx
    rw [dif_neg (show ¬(1 : Fin S32x49x32.rank) ∈ dot_S32x49x32_S32x49x32_S32x49x49_2_2_1_1_0_0.rhsBatch by decide),
      dif_pos (show (1 : Fin S32x49x32.rank) ∈ dot_S32x49x32_S32x49x32_S32x49x49_2_2_1_1_0_0.rhsNonContracting by decide)]
    rfl
  | ⟨2, _⟩ => exact (dot_S32x49x32_S32x49x32_S32x49x49_2_2_1_1_0_0.rhsIdx_val_of_single rfl (ix3 b n m) q).trans hq)

/-- The score product into the zero splat, at (b, n, m): the sum over the 32 lanes of query row n against key row m. -/
theorem qk_apply (Q K : FVec Ideal S32x49x32 .bf16) (b : Fin 32) (n m : Fin 49) :
    matmul dot_S32x49x32_S32x49x32_S32x49x49_2_2_1_1_0_0 none Q K (constant S32x49x49 .f32 0x00000000#32) (ix3 b n m)
      = ∑ d : Fin 32, Q (ix3 b n d) * K (ix3 b m d) := by
  simp only [matmul]
  rw [Ideal.matmul_constant_zero_apply,
    ← Equiv.sum_comp (ValueIdx.contrEquiv1 dot_S32x49x32_S32x49x32_S32x49x49_2_2_1_1_0_0 32 rfl rfl).symm]
  refine Finset.sum_congr rfl fun d _ => ?_
  have hk := ValueIdx.contrEquiv1_symm_val dot_S32x49x32_S32x49x32_S32x49x49_2_2_1_1_0_0 32 rfl rfl d
  rw [qk_lhs b n m _ d hk, qk_rhs b n m _ d hk]

/-- The operand indices of the value product at output (b, n, d) and key m: (b, n, m) and (b, m, d). -/
theorem av_lhs (b : Fin 32) (n : Fin 49) (d : Fin 32) (q : dot_S32x49x49_S32x49x32_S32x49x32_2_1_1_2_0_0.contr.Idx) (m : Fin 49)
    (hq : (q ⟨0, by decide⟩).val = m.val) :
    dot_S32x49x49_S32x49x32_S32x49x32_2_1_1_2_0_0.lhsIdx (ix3 b n d) q = ix3 b n m := funext fun a => Fin.ext (by
  match a with
  | ⟨0, _⟩ =>
    show (dot_S32x49x49_S32x49x32_S32x49x32_2_1_1_2_0_0.lhsIdx (ix3 b n d) q 0).val = b.val
    unfold DotDims.lhsIdx
    rw [dif_pos (show (0 : Fin S32x49x49.rank) ∈ dot_S32x49x49_S32x49x32_S32x49x32_2_1_1_2_0_0.lhsBatch by decide)]
    rfl
  | ⟨1, _⟩ =>
    show (dot_S32x49x49_S32x49x32_S32x49x32_2_1_1_2_0_0.lhsIdx (ix3 b n d) q 1).val = n.val
    unfold DotDims.lhsIdx
    rw [dif_neg (show ¬(1 : Fin S32x49x49.rank) ∈ dot_S32x49x49_S32x49x32_S32x49x32_2_1_1_2_0_0.lhsBatch by decide),
      dif_pos (show (1 : Fin S32x49x49.rank) ∈ dot_S32x49x49_S32x49x32_S32x49x32_2_1_1_2_0_0.lhsNonContracting by decide)]
    rfl
  | ⟨2, _⟩ => exact (dot_S32x49x49_S32x49x32_S32x49x32_2_1_1_2_0_0.lhsIdx_val_of_single rfl (ix3 b n d) q).trans hq)

theorem av_rhs (b : Fin 32) (n : Fin 49) (d : Fin 32) (q : dot_S32x49x49_S32x49x32_S32x49x32_2_1_1_2_0_0.contr.Idx) (m : Fin 49)
    (hq : (q ⟨0, by decide⟩).val = m.val) :
    dot_S32x49x49_S32x49x32_S32x49x32_2_1_1_2_0_0.rhsIdx (ix3 b n d) q = ix3 b m d := funext fun a => Fin.ext (by
  match a with
  | ⟨0, _⟩ =>
    show (dot_S32x49x49_S32x49x32_S32x49x32_2_1_1_2_0_0.rhsIdx (ix3 b n d) q 0).val = b.val
    unfold DotDims.rhsIdx
    rw [dif_pos (show (0 : Fin S32x49x32.rank) ∈ dot_S32x49x49_S32x49x32_S32x49x32_2_1_1_2_0_0.rhsBatch by decide)]
    rfl
  | ⟨1, _⟩ => exact (dot_S32x49x49_S32x49x32_S32x49x32_2_1_1_2_0_0.rhsIdx_val_of_single rfl (ix3 b n d) q).trans hq
  | ⟨2, _⟩ =>
    show (dot_S32x49x49_S32x49x32_S32x49x32_2_1_1_2_0_0.rhsIdx (ix3 b n d) q 2).val = d.val
    unfold DotDims.rhsIdx
    rw [dif_neg (show ¬(2 : Fin S32x49x32.rank) ∈ dot_S32x49x49_S32x49x32_S32x49x32_2_1_1_2_0_0.rhsBatch by decide),
      dif_pos (show (2 : Fin S32x49x32.rank) ∈ dot_S32x49x49_S32x49x32_S32x49x32_2_1_1_2_0_0.rhsNonContracting by decide)]
    rfl)

/-- The value product into the zero splat, at (b, n, d): the sum over the 49 keys of weight (n, m) against lane d of value row m. -/
theorem av_apply (P : FVec Ideal S32x49x49 .bf16) (V : FVec Ideal S32x49x32 .bf16) (b : Fin 32) (n : Fin 49) (d : Fin 32) :
    matmul dot_S32x49x49_S32x49x32_S32x49x32_2_1_1_2_0_0 none P V (constant S32x49x32 .f32 0x00000000#32) (ix3 b n d)
      = ∑ m : Fin 49, P (ix3 b n m) * V (ix3 b m d) := by
  simp only [matmul]
  rw [Ideal.matmul_constant_zero_apply,
    ← Equiv.sum_comp (ValueIdx.contrEquiv1 dot_S32x49x49_S32x49x32_S32x49x32_2_1_1_2_0_0 49 rfl rfl).symm]
  refine Finset.sum_congr rfl fun m _ => ?_
  have hk := ValueIdx.contrEquiv1_symm_val dot_S32x49x49_S32x49x32_S32x49x32_2_1_1_2_0_0 49 rfl rfl m
  rw [av_lhs b n d _ m hk, av_rhs b n d _ m hk]

/-! ## The layout steps at an index -/

/-- A plane [1, b, c] stretched over a new leading extent a reads at (p, q, d) the plane at (0, q, d). -/
theorem bcast_first_apply {α : Type} {a b c : ℕ} (x : (⟨3, ![1, b, c]⟩ : Shape).Idx → α)
    (h : (⟨3, ![1, b, c]⟩ : Shape).Broadcasts ⟨3, ![a, b, c]⟩) (p : Fin a) (q : Fin b) (d : Fin c) :
    broadcastTo ⟨3, ![a, b, c]⟩ x h (ix3 p q d) = x (ix3 (0 : Fin 1) q d) := by
  refine broadcastTo_apply x h (ix3 p q d) (ix3 (0 : Fin 1) q d) fun ax => ?_
  match ax with
  | ⟨0, _⟩ => rfl
  | ⟨1, _⟩ =>
    show q.val = if b = 1 then 0 else q.val
    split
    · have := q.isLt; omega
    · rfl
  | ⟨2, _⟩ =>
    show d.val = if c = 1 then 0 else d.val
    split
    · have := d.isLt; omega
    · rfl

/-- The bias plane, recast to [49, 49] and back and stretched over the windows, at (b, n, m): the plane at (0, n, m). -/
theorem bias_apply (bias : Vec Ideal S1x49x49 .f32) (b : Fin 32) (n m : Fin 49) :
    broadcastTo S32x49x49 (shapeCast S1x49x49 (shapeCast S49x49 bias shapeCasts_S1x49x49_S49x49) shapeCasts_S49x49_S1x49x49)
      broadcasts_S1x49x49_S32x49x49 (ix3 b n m) = bias (ix3 (0 : Fin 1) n m) := by
  rw [shapeCast_shapeCast]
  exact bcast_first_apply bias broadcasts_S1x49x49_S32x49x49 b n m

/-- A per-row number laid as a column and stretched along the keys reads at (b, n, m) the number of row (b, n). -/
theorem colV_apply (x : FVec Ideal S32x49 .f32) (b : Fin 32) (n m : Fin 49) :
    colV x (ix3 b n m) = x (ix2 b n) :=
  (Cert.Lib.HeadLayout.bcast_last_apply _ broadcasts_S32x49x1_S32x49x49 b n m).trans
    (Cert.Lib.HeadLayout.add_last_apply x shapeCasts_S32x49_S32x49x1 b n (0 : Fin 1))

/-! ## The stages at an index, at the extended reals -/

/-- The scores at (b, n, m). -/
theorem scoresV_apply (mask : Vec Ideal S32x49x49 .f32) (q k : Vec Ideal S32x49x32 .f32) (bias : Vec Ideal S1x49x49 .f32)
    (b : Fin 32) (n m : Fin 49) :
    scoresV mask q k bias (ix3 b n m)
      = score SC (fun d => q (ix3 b n d)) (fun m' d => k (ix3 b m' d)) (fun m' => bias (ix3 (0 : Fin 1) n m'))
          (fun m' => mask (ix3 b n m')) m :=
  congrArg₂ (· + ·) (congrArg₂ (· + ·) (qk_apply _ _ b n m) (bias_apply bias b n m)) rfl

/-- The peak of row (b, n), wherever along the keys it is read. -/
theorem peakV_apply (s : FVec Ideal S32x49x49 .f32) (b : Fin 32) (n m : Fin 49) :
    peakV s (ix3 b n m) = peak LO fun m' => s (ix3 b n m') :=
  (colV_apply _ b n m).trans (congrArg (max LO)
    (Cert.Lib.HeadLayout.max_last_apply s 0xFF800000#32 reduces_S32x49x49_S32x49 (.inl rfl) rfl b n))

/-- The exponential at (b, n, m). -/
theorem expV_apply (s : FVec Ideal S32x49x49 .f32) (b : Fin 32) (n m : Fin 49) :
    expV s (ix3 b n m) = wexp LO (fun m' => s (ix3 b n m')) m :=
  congrArg (fun p => Ideal.exp (s (ix3 b n m) - p)) (peakV_apply s b n m)

/-- The sum of row (b, n)'s exponentials, wherever along the keys it is read. -/
theorem massV_apply (s : FVec Ideal S32x49x49 .f32) (b : Fin 32) (n m : Fin 49) :
    massV s (ix3 b n m) = ∑ m' : Fin 49, wexp LO (fun m'' => s (ix3 b n m'')) m' :=
  ((colV_apply _ b n m).trans
    (Cert.Lib.HeadLayout.sum_last_apply (expV s) 0x00000000#32 reduces_S32x49x49_S32x49 (.inl rfl) rfl b n)).trans
    (Finset.sum_congr rfl fun m' _ => expV_apply s b n m')

/-- The softmax weight at (b, n, m). -/
theorem probsV_apply (s : FVec Ideal S32x49x49 .f32) (b : Fin 32) (n m : Fin 49) :
    probsV s (ix3 b n m) = prob LO (fun m' => s (ix3 b n m')) m :=
  congrArg₂ Ideal.div (expV_apply s b n m) (massV_apply s b n m)

/-- THE HEAD AT AN INDEX: at (window b, query row n, lane d) the head's result is the row's output — the softmax of the row's
    49 scores against lane d of the 49 value rows. -/
theorem headOut_apply (mask : Vec Ideal S32x49x49 .f32) (q k v : Vec Ideal S32x49x32 .f32) (bias : Vec Ideal S1x49x49 .f32)
    (b : Fin 32) (n : Fin 49) (d : Fin 32) :
    headOut mask q k v bias (ix3 b n d)
      = rowOut LO (score SC (fun d' => q (ix3 b n d')) (fun m d' => k (ix3 b m d')) (fun m => bias (ix3 (0 : Fin 1) n m))
          (fun m => mask (ix3 b n m))) (fun m => v (ix3 b m d)) := by
  refine (av_apply _ _ b n d).trans (Finset.sum_congr rfl fun m _ => ?_)
  refine congrArg (· * v (ix3 b m d)) ?_
  refine (probsV_apply _ b n m).trans ?_
  exact congrArg (fun s => prob LO s m) (funext fun m' => scoresV_apply mask q k bias b n m')

end Cert.KernelIdeal.Head

end
-- ==== Proof.AttnArray.lean ====
/-
  The windowed attention as one function of whole arrays.

  The queries, keys and values are [NB, 49, 384] arrays: NB windows of 49 rows, each row twelve heads of 32 lanes, column
  32·h + d being lane d of head h. The bias is a [12, 49, 49] array (head, query row, key row) and the mask an
  [NW, 49, 49] array of which window B uses plane `wsel B`. The output at (B, n, 32·h + d) is the row output
  (`Cert.Attn.rowOut`) of head h's scores of query row n of window B against lane d of head h of the window's value rows.
  The same function serves a block of 32 windows (with its own 32 mask planes) and the whole array of 4096 windows
  (with 64 mask planes used cyclically); `outAt_congr` moves between the two when the arrays agree entry by entry.
-/
import proofs.«102599_j120259084937_1_alg».proof.Proof.AttnSpec

noncomputable section

open scoped BigOperators

namespace Cert.Attn

open Idealize.ShloMosaic Idealize.ShloMosaic.ValueIdx

/-- Column 32·h + d of a 384-wide row: lane d of head h. -/
def lane (h : Fin 12) (d : Fin 32) : Fin 384 := ⟨h.val * 32 + d.val, by have := h.isLt; have := d.isLt; omega⟩

/-- The head a column belongs to, and its lane within the head. -/
def headOf (c : Fin 384) : Fin 12 := ⟨c.val / 32, by have := c.isLt; omega⟩
def laneOf (c : Fin 384) : Fin 32 := ⟨c.val % 32, Nat.mod_lt _ (by decide)⟩

theorem lane_headOf_laneOf (c : Fin 384) : lane (headOf c) (laneOf c) = c :=
  Fin.ext (by show c.val / 32 * 32 + c.val % 32 = c.val; omega)

theorem headOf_lane (h : Fin 12) (d : Fin 32) : headOf (lane h d) = h :=
  Fin.ext (by show (h.val * 32 + d.val) / 32 = h.val; have := d.isLt; omega)

theorem laneOf_lane (h : Fin 12) (d : Fin 32) : laneOf (lane h d) = d :=
  Fin.ext (by show (h.val * 32 + d.val) % 32 = d.val; have := d.isLt; omega)

/-- The output at window B, query row n, head h, lane d. -/
def outAt {NB NW : ℕ} (wsel : Fin NB → Fin NW)
    (q k v : (⟨3, ![NB, 49, 384]⟩ : Shape).Idx → EReal) (mask : (⟨3, ![NW, 49, 49]⟩ : Shape).Idx → EReal)
    (bias : (⟨3, ![12, 49, 49]⟩ : Shape).Idx → EReal) (B : Fin NB) (n : Fin 49) (h : Fin 12) (d : Fin 32) : EReal :=
  rowOut LO (score SC (fun d' => q (ix3 B n (lane h d'))) (fun m d' => k (ix3 B m (lane h d'))) (fun m => bias (ix3 h n m))
    (fun m => mask (ix3 (wsel B) n m))) (fun m => v (ix3 B m (lane h d)))

/-- The output of window b of one family of arrays is the output of window B of another when the entries the two read
    agree: the query row, the key and value rows, the mask plane's row; the bias is shared. -/
theorem outAt_congr {NB NW NB' NW' : ℕ} (wsel : Fin NB → Fin NW) (wsel' : Fin NB' → Fin NW')
    (q k v : (⟨3, ![NB, 49, 384]⟩ : Shape).Idx → EReal) (mask : (⟨3, ![NW, 49, 49]⟩ : Shape).Idx → EReal)
    (q' k' v' : (⟨3, ![NB', 49, 384]⟩ : Shape).Idx → EReal) (mask' : (⟨3, ![NW', 49, 49]⟩ : Shape).Idx → EReal)
    (bias : (⟨3, ![12, 49, 49]⟩ : Shape).Idx → EReal) (b : Fin NB) (B : Fin NB')
    (hq : ∀ (n : Fin 49) (c : Fin 384), q (ix3 b n c) = q' (ix3 B n c))
    (hk : ∀ (n : Fin 49) (c : Fin 384), k (ix3 b n c) = k' (ix3 B n c))
    (hv : ∀ (n : Fin 49) (c : Fin 384), v (ix3 b n c) = v' (ix3 B n c))
    (hm : ∀ (n m : Fin 49), mask (ix3 (wsel b) n m) = mask' (ix3 (wsel' B) n m))
    (n : Fin 49) (h : Fin 12) (d : Fin 32) :
    outAt wsel q k v mask bias b n h d = outAt wsel' q' k' v' mask' bias B n h d := by
  unfold outAt
  simp only [hq, hk, hv, hm]

/-- THE ATTENTION OUTPUT ARRAY: at (B, n, c) the output of head c / 32, lane c mod 32. -/
def attn {NB NW : ℕ} (wsel : Fin NB → Fin NW)
    (q k v : (⟨3, ![NB, 49, 384]⟩ : Shape).Idx → EReal) (mask : (⟨3, ![NW, 49, 49]⟩ : Shape).Idx → EReal)
    (bias : (⟨3, ![12, 49, 49]⟩ : Shape).Idx → EReal) : (⟨3, ![NB, 49, 384]⟩ : Shape).Idx → EReal :=
  fun i => outAt wsel q k v mask bias (i 0) (i 1) (headOf (i 2)) (laneOf (i 2))

theorem attn_apply {NB NW : ℕ} (wsel : Fin NB → Fin NW)
    (q k v : (⟨3, ![NB, 49, 384]⟩ : Shape).Idx → EReal) (mask : (⟨3, ![NW, 49, 49]⟩ : Shape).Idx → EReal)
    (bias : (⟨3, ![12, 49, 49]⟩ : Shape).Idx → EReal) (B : Fin NB) (n : Fin 49) (c : Fin 384) :
    attn wsel q k v mask bias (ix3 B n c) = outAt wsel q k v mask bias B n (headOf c) (laneOf c) := rfl

/-- Window B of the whole array uses mask plane B mod 64. -/
def winOf (B : Fin 4096) : Fin 64 := ⟨B.val % 64, Nat.mod_lt _ (by decide)⟩

end Cert.Attn

end
-- ==== Proof.KernelPieces.lean ====
/-
  What the body leaves in the output block, as one function of the input blocks.

  The body stores twelve slabs, head h's into columns 32·h … 32·h + 31 of the [32, 49, 384] output block. Each stored
  value is the head function (`Head.headOut`) of the mask block, the same 32 columns of the query, key and value blocks
  and plane h of the bias block: the body's twelve stored values are that one function of their loads. Read at an index, slab h at (b, n, d) is therefore the attention output of the block's own arrays at
  (b, n, 32·h + d), and the twelve slabs together are the block-sized attention array.
-/
import proofs.«102599_j120259084937_1_alg».proof.Proof.Gen.KernelIdeal.Frame
import proofs.«102599_j120259084937_1_alg».proof.Proof.KernelHead
import proofs.«102599_j120259084937_1_alg».proof.Proof.AttnArray

noncomputable section

open scoped BigOperators

namespace Cert.KernelIdeal.Pieces

open Idealize.ShloMosaic Idealize.ShloMosaic.ValueIdx Cert.KernelIdeal Cert.KernelIdeal.Gen Cert.KernelIdeal.Head Cert.Attn

/-! ## The twelve payloads are the head function -/

section Payloads

variable {F : FTy → Type} [FloatOps F]
variable (mask : Vec F S32x49x49 .f32) (q k v : Vec F S32x49x32 .f32) (bias : Vec F S1x49x49 .f32)

theorem pay_head0 : k0_pay2 mask q k v bias = headOut mask q k v bias := rfl
theorem pay_head1 : k0_pay3 mask q k v bias = headOut mask q k v bias := rfl
theorem pay_head2 : k0_pay6 mask (k0_pay4 q) (k0_pay5 k) v bias = headOut mask q k v bias := rfl
theorem pay_head3 : k0_pay9 mask (k0_pay7 v) (k0_pay8 q k) bias = headOut mask q k v bias := rfl
theorem pay_head4 : k0_pay13 (k0_pay10 v) (k0_pay11 mask q k bias) (k0_pay12 mask q k bias) = headOut mask q k v bias := rfl
theorem pay_head5 : k0_pay17 (k0_pay14 v) (k0_pay15 mask q k bias) (k0_pay16 mask q k bias) = headOut mask q k v bias := rfl
theorem pay_head6 : k0_pay18 mask q k v bias = headOut mask q k v bias := rfl
theorem pay_head7 : k0_pay19 mask q k v bias = headOut mask q k v bias := rfl
theorem pay_head8 : k0_pay21 mask (k0_pay20 q) k v bias = headOut mask q k v bias := rfl
theorem pay_head9 : k0_pay24 mask (k0_pay22 q) (k0_pay23 k) v bias = headOut mask q k v bias := rfl
theorem pay_head10 : k0_pay28 mask (k0_pay25 v) (k0_pay26 q k) (k0_pay27 bias) = headOut mask q k v bias := rfl
theorem pay_head11 : k0_pay1 (k0_pay29 v) (k0_pay30 mask q k bias) (k0_pay31 mask q k bias) = headOut mask q k v bias := rfl

end Payloads

/-! ## A slab's loads at an index -/

/-- Columns o … o + 31 of a block, loaded as a slab, read at (b, n, d): the block at (b, n, o + d). -/
theorem ld_slab (x : Vec Ideal S32x49x384 .f32) (g o : ℕ) (hg : g < 12) (ho : o = g * 32)
    (inb : ∀ a, (![0, 0, o] : Fin 3 → ℕ) a + S32x49x32.size a ≤ S32x49x384.size a) (b : Fin 32) (n : Fin 49) (d : Fin 32) :
    View.ld x (Rect.unit (s := S32x49x384) ![0, 0, o] S32x49x32.size inb) (ix3 b n d) = x (ix3 b n (lane ⟨g, hg⟩ d)) := by
  show x _ = x _
  refine congrArg x (funext fun a => Fin.ext ?_)
  match a with
  | ⟨0, _⟩ => show 0 + 1 * b.val = b.val; omega
  | ⟨1, _⟩ => show 0 + 1 * n.val = n.val; omega
  | ⟨2, _⟩ => show o + 1 * d.val = g * 32 + d.val; omega

/-- Plane g of the bias block, loaded as [1, 49, 49], read at (0, n, m): the block at (g, n, m). -/
theorem ld_plane (x : Vec Ideal S12x49x49 .f32) (g : ℕ) (hg : g < 12)
    (inb : ∀ a, (![g, 0, 0] : Fin 3 → ℕ) a + S1x49x49.size a ≤ S12x49x49.size a) (n m : Fin 49) :
    View.ld x (Rect.unit (s := S12x49x49) ![g, 0, 0] S1x49x49.size inb) (ix3 (0 : Fin 1) n m) = x (ix3 (⟨g, hg⟩ : Fin 12) n m) := by
  show x _ = x _
  refine congrArg x (funext fun a => Fin.ext ?_)
  match a with
  | ⟨0, _⟩ => show g + 1 * 0 = g; omega
  | ⟨1, _⟩ => show 0 + 1 * n.val = n.val; omega
  | ⟨2, _⟩ => show 0 + 1 * m.val = m.val; omega

/-- The slab's own index (b, n, d) sits at (b, n, o + d) of the block. -/
theorem emb_slab (g o : ℕ) (hg : g < 12) (ho : o = g * 32)
    (inb : ∀ a, (![0, 0, o] : Fin 3 → ℕ) a + S32x49x32.size a ≤ S32x49x384.size a) (b : Fin 32) (n : Fin 49) (d : Fin 32) :
    (Rect.unit (s := S32x49x384) ![0, 0, o] S32x49x32.size inb).emb (ix3 b n d) = ix3 b n (lane ⟨g, hg⟩ d) := by
  refine funext fun a => Fin.ext ?_
  match a with
  | ⟨0, _⟩ => show 0 + 1 * b.val = b.val; omega
  | ⟨1, _⟩ => show 0 + 1 * n.val = n.val; omega
  | ⟨2, _⟩ => show o + 1 * d.val = g * 32 + d.val; omega

theorem hz3 : (![0, 0, 0] : Fin 3 → Nat) = fun _ => 0 := funext fun a => by fin_cases a <;> rfl

/-! ## The block function -/

/-- What the body leaves in the output block: the attention output of the block's own arrays (its 32 windows' queries,
    keys and values, its 32 mask planes, the bias). -/
abbrev blockOut (x0 x1 x2 : Vec Ideal S32x49x384 .f32) (x3 : Vec Ideal S12x49x49 .f32) (x4 : Vec Ideal S32x49x49 .f32) :
    Vec Ideal S32x49x384 .f32 :=
  attn (NB := 32) (NW := 32) id x0 x1 x2 x4 x3

/-- Slab g's stored value at its own index is the block function at that index's place in the block. -/
theorem slab_piece (x0 x1 x2 : Vec Ideal S32x49x384 .f32) (x3 : Vec Ideal S12x49x49 .f32) (x4 : Vec Ideal S32x49x49 .f32)
    (g o : ℕ) (hg : g < 12) (ho : o = g * 32)
    (inb : ∀ a, (![0, 0, o] : Fin 3 → ℕ) a + S32x49x32.size a ≤ S32x49x384.size a)
    (inb' : ∀ a, (![g, 0, 0] : Fin 3 → ℕ) a + S1x49x49.size a ≤ S12x49x49.size a) (x : S32x49x32.Idx) :
    headOut (View.ld x4 r0_0) (View.ld x0 (Rect.unit (s := S32x49x384) ![0, 0, o] S32x49x32.size inb))
        (View.ld x1 (Rect.unit (s := S32x49x384) ![0, 0, o] S32x49x32.size inb))
        (View.ld x2 (Rect.unit (s := S32x49x384) ![0, 0, o] S32x49x32.size inb))
        (View.ld x3 (Rect.unit (s := S12x49x49) ![g, 0, 0] S1x49x49.size inb')) x
      = blockOut x0 x1 x2 x3 x4 ((Rect.unit (s := S32x49x384) ![0, 0, o] S32x49x32.size inb).emb x) := by
  obtain ⟨b, n, d, rfl⟩ : ∃ (b : Fin 32) (n : Fin 49) (d : Fin 32), x = ix3 b n d := ⟨x 0, x 1, x 2, eq_ix3 x⟩
  rw [show View.ld x4 r0_0 = x4 from View.ld_unit_zero (S := S32x49x49) hz3 _ x4]
  rw [emb_slab g o hg ho inb b n d, headOut_apply]
  show _ = outAt id x0 x1 x2 x4 x3 b n (headOf (lane ⟨g, hg⟩ d)) (laneOf (lane ⟨g, hg⟩ d))
  rw [headOf_lane, laneOf_lane]
  unfold outAt
  simp only [ld_slab x0 g o hg ho inb, ld_slab x1 g o hg ho inb, ld_slab x2 g o hg ho inb, ld_plane x3 g hg inb', id]

/-- THE OUTPUT BLOCK after the body is the block function of the five input blocks. -/
theorem out0_5_eq (x0 x1 x2 : Vec Ideal S32x49x384 .f32) (x3 : Vec Ideal S12x49x49 .f32) (x4 : Vec Ideal S32x49x49 .f32) :
    out0_5 x0 x1 x2 x3 x4 = blockOut x0 x1 x2 x3 x4 := by
  funext y
  unfold out0_5
  rw [pay_head0, pay_head1, pay_head2, pay_head3, pay_head4, pay_head5, pay_head6, pay_head7, pay_head8, pay_head9,
    pay_head10, pay_head11]
  refine View.canon_apply_of_pieces (Val := Elt Ideal) (blockOut x0 x1 x2 x3 x4) _ ?_ y (cover0_5 _ _ _ _ _ _ _ _ _ _ _ _ y)
  intro p hp
  simp only [List.mem_cons, List.mem_nil_iff, or_false] at hp
  rcases hp with rfl | rfl | rfl | rfl | rfl | rfl | rfl | rfl | rfl | rfl | rfl | rfl
  · exact slab_piece x0 x1 x2 x3 x4 11 352 (by decide) rfl _ _
  · exact slab_piece x0 x1 x2 x3 x4 10 320 (by decide) rfl _ _
  · exact slab_piece x0 x1 x2 x3 x4 9 288 (by decide) rfl _ _
  · exact slab_piece x0 x1 x2 x3 x4 8 256 (by decide) rfl _ _
  · exact slab_piece x0 x1 x2 x3 x4 7 224 (by decide) rfl _ _
  · exact slab_piece x0 x1 x2 x3 x4 6 192 (by decide) rfl _ _
  · exact slab_piece x0 x1 x2 x3 x4 5 160 (by decide) rfl _ _
  · exact slab_piece x0 x1 x2 x3 x4 4 128 (by decide) rfl _ _
  · exact slab_piece x0 x1 x2 x3 x4 3 96 (by decide) rfl _ _
  · exact slab_piece x0 x1 x2 x3 x4 2 64 (by decide) rfl _ _
  · exact slab_piece x0 x1 x2 x3 x4 1 32 (by decide) rfl _ _
  · exact slab_piece x0 x1 x2 x3 x4 0 0 (by decide) rfl _ _

end Cert.KernelIdeal.Pieces

end
-- ==== Proof.KernelValue.lean ====
/-
  From the blocks to the whole output array.

  Grid point t handles windows 32·t … 32·t + 31: the query, key, value and output blocks are rows 32·t … of their arrays
  (every row and column of a window), the bias block is the whole bias array at every point, and the mask block is planes
  32·(t mod 2) … of the 64 mask planes, so window B = 32·t + b meets plane B mod 64. What point t writes back is therefore
  block t of the attention array of the arrays the region finds; the 128 blocks tile the 4096 windows, so the output
  array ends as that attention array. The arrays the region finds are the arguments as launched, and the bias array is the
  host's gathered and transposed table, a term of the launch memory's table and index arguments.
-/
import proofs.«102599_j120259084937_1_alg».proof.Proof.Gen.KernelIdeal.Value
import proofs.«102599_j120259084937_1_alg».proof.Proof.KernelPieces
import Idealize.ShloMosaic.Lib.StableHlo.Run

noncomputable section

open scoped BigOperators

namespace Cert.Attn

open Idealize.ShloMosaic Idealize.ShloMosaic.ValueIdx

/-- `outAt` depends on its five arrays only through the entries it reads. -/
theorem outAt_congr_all {NB NW NB' NW' : ℕ} (wsel : Fin NB → Fin NW) (wsel' : Fin NB' → Fin NW')
    (q k v : (⟨3, ![NB, 49, 384]⟩ : Shape).Idx → EReal) (mask : (⟨3, ![NW, 49, 49]⟩ : Shape).Idx → EReal)
    (q' k' v' : (⟨3, ![NB', 49, 384]⟩ : Shape).Idx → EReal) (mask' : (⟨3, ![NW', 49, 49]⟩ : Shape).Idx → EReal)
    (bias bias' : (⟨3, ![12, 49, 49]⟩ : Shape).Idx → EReal) (b : Fin NB) (B : Fin NB')
    (hq : ∀ (n : Fin 49) (c : Fin 384), q (ix3 b n c) = q' (ix3 B n c))
    (hk : ∀ (n : Fin 49) (c : Fin 384), k (ix3 b n c) = k' (ix3 B n c))
    (hv : ∀ (n : Fin 49) (c : Fin 384), v (ix3 b n c) = v' (ix3 B n c))
    (hm : ∀ (n m : Fin 49), mask (ix3 (wsel b) n m) = mask' (ix3 (wsel' B) n m))
    (hb : ∀ (h : Fin 12) (n m : Fin 49), bias (ix3 h n m) = bias' (ix3 h n m))
    (n : Fin 49) (h : Fin 12) (d : Fin 32) :
    outAt wsel q k v mask bias b n h d = outAt wsel' q' k' v' mask' bias' B n h d := by
  unfold outAt
  simp only [hq, hk, hv, hm, hb]

end Cert.Attn

namespace Cert.KernelIdeal.Whole

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

/-! ## The index maps over the grid -/

/-- The printed index maps, decided over the 128 points: the query, key, value and output blocks are block t along the
    windows; the bias block is block 0; the mask block is block t mod 2 of the planes. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = 0 ∧ win0_3.index t (1 : Fin 3) = 0 ∧ win0_3.index t (2 : Fin 3) = 0)
    ∧ (win0_4.index t (0 : Fin 3) = t.val % 2 ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

/-- Window b of point t's blocks is window 32·t + b of the arrays. -/
def brow (t : Fin cfg0.N) (b : Fin 32) : Fin 4096 :=
  ⟨32 * t.val + b.val, by have hN : cfg0.N = 128 := N_0; have := t.isLt; have := b.isLt; omega⟩

/-! ## The input blocks at an index -/

theorem iblk0_apply (c : Dev nD) (t : Fin cfg0.N) (b : Fin 32) (n : Fin 49) (cc : Fin 384) :
    (iblk m c 0 t : Vec Ideal S32x49x384 .f32) (ix3 b n cc) = (V m c main_arg0 : Vec Ideal S4096x49x384 .f32) (ix3 (brow t b) n cc) := by
  obtain ⟨⟨h0, h1, h2⟩, -⟩ := idx_facts t
  unfold iblk
  rw [View.read_apply]
  show (V m c main_arg0 : Vec Ideal S4096x49x384 .f32) _ = _
  refine congrArg (V m c main_arg0 : Vec Ideal S4096x49x384 .f32) (funext fun a => Fin.ext ?_)
  match a with
  | ⟨0, _⟩ => show win0_0.index t (0 : Fin 3) * 32 + 1 * b.val = 32 * t.val + b.val; rw [h0]; omega
  | ⟨1, _⟩ => show win0_0.index t (1 : Fin 3) * 49 + 1 * n.val = n.val; rw [h1]; omega
  | ⟨2, _⟩ => show win0_0.index t (2 : Fin 3) * 384 + 1 * cc.val = cc.val; rw [h2]; omega

theorem iblk1_apply (c : Dev nD) (t : Fin cfg0.N) (b : Fin 32) (n : Fin 49) (cc : Fin 384) :
    (iblk m c 1 t : Vec Ideal S32x49x384 .f32) (ix3 b n cc) = (V m c main_arg1 : Vec Ideal S4096x49x384 .f32) (ix3 (brow t b) n cc) := by
  obtain ⟨-, ⟨h0, h1, h2⟩, -⟩ := idx_facts t
  unfold iblk
  rw [View.read_apply]
  show (V m c main_arg1 : Vec Ideal S4096x49x384 .f32) _ = _
  refine congrArg (V m c main_arg1 : Vec Ideal S4096x49x384 .f32) (funext fun a => Fin.ext ?_)
  match a with
  | ⟨0, _⟩ => show win0_1.index t (0 : Fin 3) * 32 + 1 * b.val = 32 * t.val + b.val; rw [h0]; omega
  | ⟨1, _⟩ => show win0_1.index t (1 : Fin 3) * 49 + 1 * n.val = n.val; rw [h1]; omega
  | ⟨2, _⟩ => show win0_1.index t (2 : Fin 3) * 384 + 1 * cc.val = cc.val; rw [h2]; omega

theorem iblk2_apply (c : Dev nD) (t : Fin cfg0.N) (b : Fin 32) (n : Fin 49) (cc : Fin 384) :
    (iblk m c 2 t : Vec Ideal S32x49x384 .f32) (ix3 b n cc) = (V m c main_arg2 : Vec Ideal S4096x49x384 .f32) (ix3 (brow t b) n cc) := by
  obtain ⟨-, -, ⟨h0, h1, h2⟩, -⟩ := idx_facts t
  unfold iblk
  rw [View.read_apply]
  show (V m c main_arg2 : Vec Ideal S4096x49x384 .f32) _ = _
  refine congrArg (V m c main_arg2 : Vec Ideal S4096x49x384 .f32) (funext fun a => Fin.ext ?_)
  match a with
  | ⟨0, _⟩ => show win0_2.index t (0 : Fin 3) * 32 + 1 * b.val = 32 * t.val + b.val; rw [h0]; omega
  | ⟨1, _⟩ => show win0_2.index t (1 : Fin 3) * 49 + 1 * n.val = n.val; rw [h1]; omega
  | ⟨2, _⟩ => show win0_2.index t (2 : Fin 3) * 384 + 1 * cc.val = cc.val; rw [h2]; omega

/-- The bias block is the bias array. -/
theorem iblk3_apply (c : Dev nD) (t : Fin cfg0.N) (h : Fin 12) (n k : Fin 49) :
    (iblk m c 3 t : Vec Ideal S12x49x49 .f32) (ix3 h n k) = (V m c main_v7 : Vec Ideal S12x49x49 .f32) (ix3 h n k) := by
  obtain ⟨-, -, -, ⟨h0, h1, h2⟩, -⟩ := idx_facts t
  unfold iblk
  rw [View.read_apply]
  show (V m c main_v7 : Vec Ideal S12x49x49 .f32) _ = _
  refine congrArg (V m c main_v7 : Vec Ideal S12x49x49 .f32) (funext fun a => Fin.ext ?_)
  match a with
  | ⟨0, _⟩ => show win0_3.index t (0 : Fin 3) * 12 + 1 * h.val = h.val; rw [h0]; omega
  | ⟨1, _⟩ => show win0_3.index t (1 : Fin 3) * 49 + 1 * n.val = n.val; rw [h1]; omega
  | ⟨2, _⟩ => show win0_3.index t (2 : Fin 3) * 49 + 1 * k.val = k.val; rw [h2]; omega

/-- Plane b of the mask block at point t is the plane of window 32·t + b: plane (32·t + b) mod 64. -/
theorem iblk4_apply (c : Dev nD) (t : Fin cfg0.N) (b : Fin 32) (n k : Fin 49) :
    (iblk m c 4 t : Vec Ideal S32x49x49 .f32) (ix3 b n k) = (V m c main_arg3 : Vec Ideal S64x49x49 .f32) (ix3 (winOf (brow t b)) n k) := by
  obtain ⟨-, -, -, -, ⟨h0, h1, h2⟩, -⟩ := idx_facts t
  unfold iblk
  rw [View.read_apply]
  show (V m c main_arg3 : Vec Ideal S64x49x49 .f32) _ = _
  refine congrArg (V m c main_arg3 : Vec Ideal S64x49x49 .f32) (funext fun a => Fin.ext ?_)
  match a with
  | ⟨0, _⟩ => show win0_4.index t (0 : Fin 3) * 32 + 1 * b.val = (32 * t.val + b.val) % 64; rw [h0]; have := b.isLt; omega
  | ⟨1, _⟩ => show win0_4.index t (1 : Fin 3) * 49 + 1 * n.val = n.val; rw [h1]; omega
  | ⟨2, _⟩ => show win0_4.index t (2 : Fin 3) * 49 + 1 * k.val = k.val; rw [h2]; omega

/-! ## The attention array of what the region finds -/

/-- The attention array of the arrays as the region finds them. -/
abbrev whole (c : Dev nD) : Buf (Elt Ideal) ((c : Thread nD τ).loc main_v8) :=
  attn (NB := 4096) (NW := 64) winOf (V m c main_arg0) (V m c main_arg1) (V m c main_arg2) (V m c main_arg3) (V m c main_v7)

/-- The block function of point t's input blocks at (b, n, c) is the whole array's entry at (32·t + b, n, c). -/
theorem block_at (c : Dev nD) (t : Fin cfg0.N) (b : Fin 32) (n : Fin 49) (cc : Fin 384) :
    Pieces.blockOut (iblk m c 0 t) (iblk m c 1 t) (iblk m c 2 t) (iblk m c 3 t) (iblk m c 4 t) (ix3 b n cc)
      = whole m c (ix3 (brow t b) n cc) :=
  outAt_congr_all (NB := 32) (NW := 32) (NB' := 4096) (NW' := 64) id winOf
    (iblk m c 0 t) (iblk m c 1 t) (iblk m c 2 t) (iblk m c 4 t)
    (V m c main_arg0) (V m c main_arg1) (V m c main_arg2) (V m c main_arg3)
    (iblk m c 3 t) (V m c main_v7) b (brow t b)
    (fun n' c' => iblk0_apply m c t b n' c') (fun n' c' => iblk1_apply m c t b n' c') (fun n' c' => iblk2_apply m c t b n' c')
    (fun n' k => iblk4_apply m c t b n' k) (fun h n' k => iblk3_apply m c t h n' k) n (headOf cc) (laneOf cc)

/-- WHAT POINT t WRITES BACK is block t of the attention array. -/
theorem flushed_eq (c : Dev nD) (t : Fin cfg0.N) :
    (dats m 0 c).flushed 5 t = ((cfg0.win 5).blk t).view.read (Elt Ideal) (whole m c) := by
  rw [Value.flushed5, Pieces.out0_5_eq (iblk m c 0 t) (iblk m c 1 t) (iblk m c 2 t) (iblk m c 3 t) (iblk m c 4 t)]
  obtain ⟨-, -, -, -, -, h0, h1, h2⟩ := idx_facts t
  funext j
  show Pieces.blockOut (iblk m c 0 t) (iblk m c 1 t) (iblk m c 2 t) (iblk m c 3 t) (iblk m c 4 t) j
    = whole m c (((cfg0.win 5).blk t).view.emb j)
  have e1 : j = ix3 (j 0) (j 1) (j 2) := eq_ix3 j
  have e2 : ((cfg0.win 5).blk t).view.emb j = ix3 (brow t (j 0)) (j 1) (j 2) := funext fun a => Fin.ext (by
    match a with
    | ⟨0, _⟩ => show win0_5.index t (0 : Fin 3) * 32 + 1 * (j 0).val = 32 * t.val + (j 0).val; rw [h0]; omega
    | ⟨1, _⟩ => show win0_5.index t (1 : Fin 3) * 49 + 1 * (j 1).val = (j 1).val; rw [h1]; omega
    | ⟨2, _⟩ => show win0_5.index t (2 : Fin 3) * 384 + 1 * (j 2).val = (j 2).val; rw [h2]; omega)
  exact (congrArg (Pieces.blockOut (iblk m c 0 t) (iblk m c 1 t) (iblk m c 2 t) (iblk m c 3 t) (iblk m c 4 t)) e1).trans
    ((block_at m c t (j 0) (j 1) (j 2)).trans (congrArg (whole m c) e2.symm))

/-- Every index of the output array is in the block of the point that handles its window: point (window / 32). -/
theorem cover (c : Dev nD) (i : S4096x49x384.Idx) :
    ∃ t : Fin cfg0.N, (cfg0.win 5).flush t = true ∧ i ∈ ((cfg0.win 5).blk t).view.set := by
  have hN : cfg0.N = 128 := N_0
  have hi0 : (i 0).val < 4096 := (i 0).isLt
  have hi1 : (i 1).val < 49 := (i 1).isLt
  have hi2 : (i 2).val < 384 := (i 2).isLt
  obtain ⟨t, ht⟩ : ∃ t : Fin cfg0.N, t.val = (i 0).val / 32 := ⟨⟨(i 0).val / 32, by omega⟩, rfl⟩
  obtain ⟨-, -, -, -, -, h0, h1, h2⟩ := idx_facts t
  refine ⟨t, flush0_5 t, ?_⟩
  show i ∈ ((View.whole main_v8).slice (win0_5.rect t)).set
  rw [View.set_slice_whole, Rect.mem_set_unit]
  intro a
  match a with
  | ⟨0, _⟩ =>
    show win0_5.index t (0 : Fin 3) * 32 ≤ (i 0).val ∧ (i 0).val < win0_5.index t (0 : Fin 3) * 32 + 32
    rw [h0, ht]; omega
  | ⟨1, _⟩ =>
    show win0_5.index t (1 : Fin 3) * 49 ≤ (i 1).val ∧ (i 1).val < win0_5.index t (1 : Fin 3) * 49 + 49
    rw [h1]; omega
  | ⟨2, _⟩ =>
    show win0_5.index t (2 : Fin 3) * 384 ≤ (i 2).val ∧ (i 2).val < win0_5.index t (2 : Fin 3) * 384 + 384
    rw [h2]; omega

/-- THE OUTPUT ARRAY after the run is the attention array of what the region finds. -/
theorem final (c : Dev nD) : (dats m 0 c).arrAt 5 cfg0.N = whole m c :=
  (dats m 0 c).arrAt_eq_of_cover 5 (whole m c) (fun t _ => flushed_eq m c t) (fun i => cover c i)

/-! ## What the region finds, in terms of the launch memory -/

/-- The bias array: the table's rows gathered at the index array's entries (a negative entry first raised by 169), the
    head axis moved to the front — the host operations before the kernel, as one term of the table and the index array. -/
def biasK (x4 : (⟨S169x12, .f32⟩ : BufTy).Contents (Elt Ideal)) (x5 : (⟨S49x49, .i32⟩ : BufTy).Contents (Elt Ideal)) :
    (⟨S12x49x49, .f32⟩ : BufTy).Contents (Elt Ideal) :=
  transpose S12x49x49 [2, 0, 1]
    (Host.gather gather_S169x12_S49x49x1_S49x49x12_2_0_n_n_0_2_112 x4
      (broadcastInDim S49x49x1 ![0, 1] bcast_S49x49_S49x49x1_0_1
        (select (cmpi .slt x5 (broadcastInDim S49x49 ![] bcast_S_S49x49 (constantI S_ 32 0#32)))
          (addi x5 (broadcastInDim S49x49 ![] bcast_S_S49x49 (constantI S_ 32 169#32))) x5)))
    transposes_S49x49x12_S12x49x49_2_0_1

/-- The region finds the bias array the host operations computed from the launch memory. -/
theorem V_bias (c : Dev nD) :
    (V m c main_v7 : (⟨S12x49x49, .f32⟩ : BufTy).Contents (Elt Ideal))
      = biasK (m ((c : Thread nD τ).loc main_arg4)) (m ((c : Thread nD τ).loc main_arg5)) := by
  dsimp only [Gen.V, Gen.hostOps0]
  after_results
  rfl

/-- The attention array of the launch memory's arguments. -/
abbrev result (c : Dev nD) : Buf (Elt Ideal) ((c : Thread nD τ).loc main_v8) :=
  attn (NB := 4096) (NW := 64) winOf (m ((c : Thread nD τ).loc main_arg0)) (m ((c : Thread nD τ).loc main_arg1))
    (m ((c : Thread nD τ).loc main_arg2)) (m ((c : Thread nD τ).loc main_arg3))
    (biasK (m ((c : Thread nD τ).loc main_arg4)) (m ((c : Thread nD τ).loc main_arg5)))

theorem whole_eq (c : Dev nD) : whole m c = result m c := by
  unfold whole result
  rw [V_main_arg0, V_main_arg1, V_main_arg2, V_main_arg3, V_bias]

/-! ## The run, read -/

/-- The kernel program's run: the output array ends as the attention array of the arguments, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c).trans (whole_eq m c)), (h c).2⟩) (Value.run_blocks m ρ)

end Cert.KernelIdeal.Whole

end
-- ==== Proof.RefValue.lean ====
/-
  The reference's result is the attention array.

  The reference splits the 384 columns of the queries, keys and values into twelve heads of 32 lanes and moves the head
  axis in front of the rows: entry (B, h, n, d) of a moved array is entry (B, n, 32·h + d) of the argument. Its scores are
  a product batched over (window, head) and contracted over the lanes, plus the bias (head, query row, key row) spread
  over the windows, plus the mask: the 4096 windows are regrouped as 64 × 64, the mask plane of window B being plane
  B mod 64. The softmax along the keys and the second batched product follow, and the head axis moves back behind the
  rows and merges with the lanes. Read at (B, n, c) this is `Cert.Attn.attn` at that index, the mask plane chosen
  by `winOf`, the bias array being the reference's own gathered and transposed table.
-/
import proofs.«102599_j120259084937_1_alg».proof.Proof.Gen.ReferenceIdeal.Read
import proofs.«102599_j120259084937_1_alg».proof.Proof.AttnArray
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

variable (x0 x1 x2 : (⟨S4096x49x384, .f32⟩ : BufTy).Contents (Elt Ideal)) (x3 : (⟨S64x49x49, .f32⟩ : BufTy).Contents (Elt Ideal))
  (x4 : (⟨S169x12, .f32⟩ : BufTy).Contents (Elt Ideal)) (x5 : (⟨S49x49, .i32⟩ : BufTy).Contents (Elt Ideal))

/-! ## Heads in front: (B, h, n, d) of a moved array is (B, n, 32·h + d) of the argument -/

theorem idx_heads (B : Fin 4096) (h : Fin 12) (n : Fin 49) (d : Fin 32) :
    idx_main_v0 (idx_main_v1 (ix4 B h n d)) = ix3 B n (lane h d) := funext fun a => Fin.ext (by
  have hB := B.isLt; have hh := h.isLt; have hn := n.isLt; have hd := d.isLt
  match a with
  | ⟨0, _⟩ => show (((B.val * 49 + n.val) * 12 + h.val) * 32 + d.val) / 18816 = B.val; omega
  | ⟨1, _⟩ => show (((B.val * 49 + n.val) * 12 + h.val) * 32 + d.val) / 384 % 49 = n.val; omega
  | ⟨2, _⟩ => show (((B.val * 49 + n.val) * 12 + h.val) * 32 + d.val) % 384 = h.val * 32 + d.val; omega)

/-- The scaled queries. -/
theorem qh_apply (B : Fin 4096) (h : Fin 12) (n : Fin 49) (d : Fin 32) :
    val_main_v3 (F := Ideal) x0 (ix4 B h n d) = x0 (ix3 B n (lane h d)) * SC := by
  rw [val_main_v3_apply, val_main_v1_apply, val_main_v0_apply, idx_heads]
  rfl

/-- The keys. -/
theorem kh_apply (B : Fin 4096) (h : Fin 12) (m : Fin 49) (d : Fin 32) :
    val_main_v5 (F := Ideal) x1 (ix4 B h m d) = x1 (ix3 B m (lane h d)) := by
  rw [val_main_v5_apply, val_main_v4_apply]
  exact congrArg x1 (idx_heads B h m d)

/-- The values. -/
theorem vh_apply (B : Fin 4096) (h : Fin 12) (m : Fin 49) (d : Fin 32) :
    val_main_v7 (F := Ideal) x2 (ix4 B h m d) = x2 (ix3 B m (lane h d)) := by
  rw [val_main_v7_apply, val_main_v6_apply]
  exact congrArg x2 (idx_heads B h m d)

/-! ## The scores -/

/-- The batched product of scaled query rows with key rows. -/
theorem qk_apply (B : Fin 4096) (h : Fin 12) (n m : Fin 49) :
    val_main_v8 (F := Ideal) x0 x1 (ix4 B h n m) = ∑ d : Fin 32, (x0 (ix3 B n (lane h d)) * SC) * x1 (ix3 B m (lane h d)) := by
  rw [val_main_v8_apply]
  refine Finset.sum_congr rfl fun d _ => ?_
  have el : lidx_main_v8 (ix4 B h n m) d = ix4 B h n d := funext fun a => Fin.ext (by
    match a with | ⟨0, _⟩ => rfl | ⟨1, _⟩ => rfl | ⟨2, _⟩ => rfl | ⟨3, _⟩ => rfl)
  have er : ridx_main_v8 (ix4 B h n m) d = ix4 B h m d := funext fun a => Fin.ext (by
    match a with | ⟨0, _⟩ => rfl | ⟨1, _⟩ => rfl | ⟨2, _⟩ => rfl | ⟨3, _⟩ => rfl)
  rw [el, er, qh_apply, kh_apply]

/-- The bias spread over the windows. -/
theorem bias_apply (B : Fin 4096) (h : Fin 12) (n m : Fin 49) :
    val_main_v18 (F := Ideal) x4 x5 (ix4 B h n m) = val_main_v16 (F := Ideal) x4 x5 (ix3 h n m) := by
  rw [val_main_v18_apply, val_main_v17_apply]
  exact congrArg (val_main_v16 (F := Ideal) x4 x5) (funext fun a => Fin.ext (by
    match a with | ⟨0, _⟩ => rfl | ⟨1, _⟩ => rfl | ⟨2, _⟩ => rfl))

/-- The image a window belongs to: B / 64. -/
def hiOf (B : Fin 4096) : Fin 64 := ⟨B.val / 64, by have := B.isLt; omega⟩

/-- Window B regrouped: image B / 64, plane B mod 64. -/
theorem idx24 (B : Fin 4096) (h : Fin 12) (n m : Fin 49) :
    idx_main_v24 (ix4 B h n m) = ix5 (hiOf B) (winOf B) h n m := funext fun a => Fin.ext (by
  have hB := B.isLt; have hh := h.isLt; have hn := n.isLt; have hm := m.isLt
  match a with
  | ⟨0, _⟩ => show (((B.val * 12 + h.val) * 49 + n.val) * 49 + m.val) / 1843968 = B.val / 64; omega
  | ⟨1, _⟩ => show (((B.val * 12 + h.val) * 49 + n.val) * 49 + m.val) / 28812 % 64 = B.val % 64; omega
  | ⟨2, _⟩ => show (((B.val * 12 + h.val) * 49 + n.val) * 49 + m.val) / 2401 % 12 = h.val; omega
  | ⟨3, _⟩ => show (((B.val * 12 + h.val) * 49 + n.val) * 49 + m.val) / 49 % 49 = n.val; omega
  | ⟨4, _⟩ => show (((B.val * 12 + h.val) * 49 + n.val) * 49 + m.val) % 49 = m.val; omega)

/-- … and back. -/
theorem idx20 (B : Fin 4096) (h : Fin 12) (n m : Fin 49) :
    idx_main_v20 (ix5 (hiOf B) (winOf B) h n m) = ix4 B h n m := funext fun a => Fin.ext (by
  have hB := B.isLt; have hh := h.isLt; have hn := n.isLt; have hm := m.isLt
  match a with
  | ⟨0, _⟩ => show (((((B.val / 64) * 64 + B.val % 64) * 12 + h.val) * 49 + n.val) * 49 + m.val) / 28812 = B.val; omega
  | ⟨1, _⟩ => show (((((B.val / 64) * 64 + B.val % 64) * 12 + h.val) * 49 + n.val) * 49 + m.val) / 2401 % 12 = h.val; omega
  | ⟨2, _⟩ => show (((((B.val / 64) * 64 + B.val % 64) * 12 + h.val) * 49 + n.val) * 49 + m.val) / 49 % 49 = n.val; omega
  | ⟨3, _⟩ => show (((((B.val / 64) * 64 + B.val % 64) * 12 + h.val) * 49 + n.val) * 49 + m.val) % 49 = m.val; omega)

/-- The mask spread over the images and the heads reads plane w at (a, w, h, n, m). -/
theorem idx22 (a w : Fin 64) (h : Fin 12) (n m : Fin 49) :
    idx_main_v21 (idx_main_v22 (ix5 a w h n m)) = ix3 w n m := funext fun ax => Fin.ext (by
  match ax with | ⟨0, _⟩ => rfl | ⟨1, _⟩ => rfl | ⟨2, _⟩ => rfl)

/-- THE SCORES at (B, h, n, m). -/
theorem scores_apply (B : Fin 4096) (h : Fin 12) (n m : Fin 49) :
    val_main_v24 (F := Ideal) x0 x1 x3 x4 x5 (ix4 B h n m)
      = score SC (fun d => x0 (ix3 B n (lane h d))) (fun m' d => x1 (ix3 B m' (lane h d)))
          (fun m' => val_main_v16 (F := Ideal) x4 x5 (ix3 h n m')) (fun m' => x3 (ix3 (winOf B) n m')) m := by
  rw [val_main_v24_apply, idx24, val_main_v23_apply, val_main_v20_apply, idx20, val_main_v19_apply, qk_apply, bias_apply,
    val_main_v22_apply, val_main_v21_apply, idx22]
  rfl

/-! ## The softmax along the keys -/

/-- The index a reduction along the keys lifts (B, h, n) to, with key r: (B, h, n, r). -/
theorem lift_keys (hR : S4096x12x49x49.Reduces [3] S4096x12x49) (B : Fin 4096) (h : Fin 12) (n : Fin 49)
    (r : Fin (S4096x12x49x49.size 3)) :
    hR.lift (ix3 B h n) r = ix4 B h n (⟨r.val, r.isLt⟩ : Fin 49) := funext fun ax => Fin.ext (by
  match ax with | ⟨0, _⟩ => rfl | ⟨1, _⟩ => rfl | ⟨2, _⟩ => rfl | ⟨3, _⟩ => rfl)

/-- The row's largest score, from minus infinity. -/
theorem rowmax_apply (B : Fin 4096) (h : Fin 12) (n : Fin 49) :
    val_main_v25 (F := Ideal) x0 x1 x3 x4 x5 (ix3 B h n)
      = (Finset.univ : Finset (Fin 49)).fold max LO fun m => val_main_v24 (F := Ideal) x0 x1 x3 x4 x5 (ix4 B h n m) := by
  unfold val_main_v25
  generalize val_main_v24 (F := Ideal) x0 x1 x3 x4 x5 = s
  refine (Host.reduce_eq_fold_single (α := Ideal .f32) (FloatOps.maximumf (F := Ideal) (φ := .f32)) s (val_main_cst_1 (F := Ideal))
    reducesTo_S4096x12x49x49_S4096x12x49_d3 (by decide) h_S_ (ix3 B h n)).trans ?_
  show (Finset.univ : Finset (Fin 49)).fold max LO (s ∘ _) = _
  refine congrArg (fun f => (Finset.univ : Finset (Fin 49)).fold max LO f) (funext fun r => ?_)
  exact congrArg s (lift_keys _ B h n r)

/-- The row's peak, wherever along the keys it is read. -/
theorem peak_apply (B : Fin 4096) (h : Fin 12) (n m : Fin 49) :
    val_main_v29 (F := Ideal) x0 x1 x3 x4 x5 (ix4 B h n m)
      = peak LO fun m' => val_main_v24 (F := Ideal) x0 x1 x3 x4 x5 (ix4 B h n m') := by
  have e : idx_main_v28 (idx_main_v29 (ix4 B h n m)) = ix3 B h n := funext fun ax => Fin.ext (by
    match ax with | ⟨0, _⟩ => rfl | ⟨1, _⟩ => rfl | ⟨2, _⟩ => rfl)
  rw [val_main_v29_apply, val_main_v28_apply, e, val_main_v27_apply, rowmax_apply]
  rfl

/-- The exponential at (B, h, n, m). -/
theorem exp_apply (B : Fin 4096) (h : Fin 12) (n m : Fin 49) :
    val_main_v31 (F := Ideal) x0 x1 x3 x4 x5 (ix4 B h n m)
      = wexp LO (fun m' => val_main_v24 (F := Ideal) x0 x1 x3 x4 x5 (ix4 B h n m')) m := by
  rw [val_main_v31_apply, val_main_v30_apply, peak_apply]
  rfl

/-- The row's sum of exponentials, wherever along the keys it is read. -/
theorem mass_apply (B : Fin 4096) (h : Fin 12) (n m : Fin 49) :
    val_main_v34 (F := Ideal) x0 x1 x3 x4 x5 (ix4 B h n m)
      = ∑ m' : Fin 49, wexp LO (fun m'' => val_main_v24 (F := Ideal) x0 x1 x3 x4 x5 (ix4 B h n m'')) m' := by
  have e : idx_main_v33 (idx_main_v34 (ix4 B h n m)) = ix3 B h n := funext fun ax => Fin.ext (by
    match ax with | ⟨0, _⟩ => rfl | ⟨1, _⟩ => rfl | ⟨2, _⟩ => rfl)
  rw [val_main_v34_apply, val_main_v33_apply, e, val_main_v32_apply]
  rw [show val_main_cst_3 (F := Ideal) (Shape.Idx.first h_S_) = 0 from Ideal.ofBits_zero_f32, zero_add]
  refine Finset.sum_congr rfl fun m' _ => ?_
  have e' : idx_main_v32 (ix3 B h n) m' = ix4 B h n m' := funext fun ax => Fin.ext (by
    match ax with | ⟨0, _⟩ => rfl | ⟨1, _⟩ => rfl | ⟨2, _⟩ => rfl | ⟨3, _⟩ => rfl)
  rw [e', exp_apply]

/-- The softmax weight at (B, h, n, m). -/
theorem prob_apply (B : Fin 4096) (h : Fin 12) (n m : Fin 49) :
    val_main_v35 (F := Ideal) x0 x1 x3 x4 x5 (ix4 B h n m)
      = prob LO (fun m' => val_main_v24 (F := Ideal) x0 x1 x3 x4 x5 (ix4 B h n m')) m := by
  rw [val_main_v35_apply, exp_apply, mass_apply]
  rfl

/-! ## The weighted values, and the heads moved back -/

/-- The batched product of the weights with the value rows. -/
theorem out_apply (B : Fin 4096) (h : Fin 12) (n : Fin 49) (d : Fin 32) :
    val_main_v36 (F := Ideal) x0 x1 x2 x3 x4 x5 (ix4 B h n d)
      = rowOut LO (fun m => val_main_v24 (F := Ideal) x0 x1 x3 x4 x5 (ix4 B h n m)) (fun m => x2 (ix3 B m (lane h d))) := by
  rw [val_main_v36_apply]
  refine Finset.sum_congr rfl fun m _ => ?_
  have el : lidx_main_v36 (ix4 B h n d) m = ix4 B h n m := funext fun a => Fin.ext (by
    match a with | ⟨0, _⟩ => rfl | ⟨1, _⟩ => rfl | ⟨2, _⟩ => rfl | ⟨3, _⟩ => rfl)
  have er : ridx_main_v36 (ix4 B h n d) m = ix4 B h m d := funext fun a => Fin.ext (by
    match a with | ⟨0, _⟩ => rfl | ⟨1, _⟩ => rfl | ⟨2, _⟩ => rfl | ⟨3, _⟩ => rfl)
  rw [el, er, prob_apply, vh_apply]

/-- Column c of row (B, n) is lane c mod 32 of head c / 32. -/
theorem idx_merge (B : Fin 4096) (n : Fin 49) (c : Fin 384) :
    idx_main_v37 (idx_main_v38 (ix3 B n c)) = ix4 B (headOf c) n (laneOf c) := funext fun a => Fin.ext (by
  have hB := B.isLt; have hn := n.isLt; have hc := c.isLt
  match a with
  | ⟨0, _⟩ => show ((B.val * 49 + n.val) * 384 + c.val) / 18816 = B.val; omega
  | ⟨1, _⟩ => show ((B.val * 49 + n.val) * 384 + c.val) / 32 % 12 = c.val / 32; omega
  | ⟨2, _⟩ => show ((B.val * 49 + n.val) * 384 + c.val) / 384 % 49 = n.val; omega
  | ⟨3, _⟩ => show ((B.val * 49 + n.val) * 384 + c.val) % 32 = c.val % 32; omega)

/-- THE RESULT AT AN INDEX. -/
theorem result_apply (B : Fin 4096) (n : Fin 49) (c : Fin 384) :
    val_main_v38 (F := Ideal) x0 x1 x2 x3 x4 x5 (ix3 B n c)
      = attn (NB := 4096) (NW := 64) winOf x0 x1 x2 x3 (val_main_v16 (F := Ideal) x4 x5) (ix3 B n c) := by
  rw [val_main_v38_apply, val_main_v37_apply, idx_merge, out_apply, attn_apply]
  exact congrArg (fun s => rowOut LO s fun m => x2 (ix3 B m (lane (headOf c) (laneOf c))))
    (funext fun m => scores_apply x0 x1 x3 x4 x5 B (headOf c) n m)

/-- THE REFERENCE'S RESULT IS THE ATTENTION ARRAY of its arguments, the bias being its gathered, transposed table. -/
theorem result_eq :
    val_main_v38 (F := Ideal) x0 x1 x2 x3 x4 x5
      = attn (NB := 4096) (NW := 64) winOf x0 x1 x2 x3 (val_main_v16 (F := Ideal) x4 x5) := by
  funext i
  obtain ⟨B, n, c, rfl⟩ : ∃ (B : Fin 4096) (n : Fin 49) (c : Fin 384), i = ix3 B n c := ⟨i 0, i 1, i 2, eq_ix3 i⟩
  exact result_apply x0 x1 x2 x3 x4 x5 B n c

end Cert.ReferenceIdeal.RefValue

end
-- ==== Proof.lean ====
/-
  A windowed multi-head attention: 4096 windows of 49 rows, twelve heads of 32 lanes, a relative-position bias gathered
  from a table, and a mask plane per window (64 planes, used cyclically).

  The kernel works through the windows in blocks of 32. For each head it takes the 32 columns of that head out of the
  query, key and value blocks, forms the scores (scaled query rows against key rows, plus the head's bias plane, plus the
  window's mask plane), takes the softmax along the keys and weighs the value rows, and stores the result in the same 32
  columns of the output block. The reference regroups the columns as (head, lane), moves the heads in front of the rows
  and does the same with products batched over (window, head). Over the extended reals, with every operation exact, both
  end at one array: `Cert.Attn.attn`, whose entry (B, n, 32·h + d) is the softmax-weighted sum, over the 49 keys of
  window B, of lane d of head h of the value rows, the weights being those of query row n in head h. No sum is
  reordered and no law of the extended reals beyond the two programs' own operations is needed, so the precondition is
  not used.

  The two programs compute the bias array by the same host operations (the index array's negative entries raised by 169,
  a gather of table rows, the head axis moved to the front); the two terms are one (`bias_eq`). The kernel side
  (Proof/KernelHead, KernelPieces, KernelValue) reads one head at an index, the twelve stored slabs as one block
  function, and the 128 blocks as the whole array; the reference side (Proof/RefValue) reads the reference's operations
  one by one. The three frames are the programs' runs with the value dropped; the kernel's idealization rewrote nothing.
-/
import proofs.«102599_j120259084937_1_alg».proof.Defs
import proofs.«102599_j120259084937_1_alg».proof.Proof.Gen.Kernel
import proofs.«102599_j120259084937_1_alg».proof.Proof.Gen.Kernel.Skeleton
import proofs.«102599_j120259084937_1_alg».proof.Proof.Gen.Kernel.Launch
import proofs.«102599_j120259084937_1_alg».proof.Proof.Gen.Kernel.Points
import proofs.«102599_j120259084937_1_alg».proof.Proof.Gen.Kernel.Frame
import proofs.«102599_j120259084937_1_alg».proof.Proof.Gen.KernelIdeal
import proofs.«102599_j120259084937_1_alg».proof.Proof.Gen.KernelIdeal.Skeleton
import proofs.«102599_j120259084937_1_alg».proof.Proof.Gen.KernelIdeal.Launch
import proofs.«102599_j120259084937_1_alg».proof.Proof.Gen.KernelIdeal.Points
import proofs.«102599_j120259084937_1_alg».proof.Proof.Gen.KernelIdeal.Frame
import proofs.«102599_j120259084937_1_alg».proof.Proof.Gen.ReferenceIdeal
import proofs.«102599_j120259084937_1_alg».proof.Proof.Gen.Pre_finite_inputs
import proofs.«102599_j120259084937_1_alg».proof.Proof.Gen.KernelIdeal.Value
import proofs.«102599_j120259084937_1_alg».proof.Proof.Gen.ReferenceIdeal.Run
import proofs.«102599_j120259084937_1_alg».proof.Proof.Gen.ReferenceIdeal.Read
import proofs.«102599_j120259084937_1_alg».proof.Proof.KernelValue
import proofs.«102599_j120259084937_1_alg».proof.Proof.RefValue
import Idealize.ShloMosaic.Adequacy
import Idealize.ShloMosaic.Init

noncomputable section

namespace Cert.Proof

open Idealize.ShloMosaic Idealize.ShloMosaic.TcCoe Idealize.SL.Sem

/-- The two programs' bias arrays are one term of the table and the index array: the same host operations, each
    program's under its own names. -/
theorem bias_eq (x4 : (⟨Cert.KernelIdeal.S169x12, .f32⟩ : BufTy).Contents (Elt Ideal))
    (x5 : (⟨Cert.KernelIdeal.S49x49, .i32⟩ : BufTy).Contents (Elt Ideal)) :
    Cert.KernelIdeal.Whole.biasK x4 x5 = Cert.ReferenceIdeal.Read.val_main_v16 (F := Ideal) x4 x5 := by
  unfold Cert.KernelIdeal.Whole.biasK Cert.ReferenceIdeal.Read.val_main_v16 Cert.ReferenceIdeal.Read.val_main_v15
    Cert.ReferenceIdeal.Read.val_main_v14 Cert.ReferenceIdeal.Read.val_main_v13 Cert.ReferenceIdeal.Read.val_main_v12
    Cert.ReferenceIdeal.Read.val_main_v11 Cert.ReferenceIdeal.Read.val_main_v10 Cert.ReferenceIdeal.Read.val_main_v9
    Cert.ReferenceIdeal.Read.val_main_c Cert.ReferenceIdeal.Read.val_main_c_0
  rfl

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories agreeing on the arguments both programs end with the attention array of those arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.ReferenceIdeal.RefValue.result_eq, (hagree c).1, (hagree c).2.1,
    (hagree c).2.2.1, (hagree c).2.2.2.1, (hagree c).2.2.2.2.1, (hagree c).2.2.2.2.2, ← bias_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
